-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x128 : Shape := ⟨2, ![1024, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1024x128 .f32) (main_arg3 : FVec F S1024x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4096x1024 : Shape := ⟨2, ![4096, 1024]⟩
abbrev S1024x128 : Shape := ⟨2, ![1024, 128]⟩
abbrev S128x1024 : Shape := ⟨2, ![128, 1024]⟩
abbrev S1024x1024 : Shape := ⟨2, ![1024, 1024]⟩
abbrev S128x128 : Shape := ⟨2, ![128, 128]⟩
abbrev S128x64 : Shape := ⟨2, ![128, 64]⟩
abbrev S64x1024 : Shape := ⟨2, ![64, 1024]⟩
abbrev S128x1 : Shape := ⟨2, ![128, 1]⟩
abbrev S1x1024 : Shape := ⟨2, ![1, 1024]⟩
abbrev S4096x4096 : Shape := ⟨2, ![4096, 4096]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x128, .f32⟩
  | .hbm, ⟨3, _⟩ => ⟨S1024x128, .f32⟩
  | .hbm, ⟨4, _⟩ => ⟨S128x1024, .f32⟩
  | .hbm, ⟨5, _⟩ => ⟨S1024x1024, .f32⟩
  | .hbm, ⟨6, _⟩ => ⟨S4096x4096, .f32⟩
  | .local _ .vmem, ⟨0, _⟩ => ⟨S128x128, .f32⟩
  | .local _ .vmem, ⟨1, _⟩ => ⟨S128x128, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x128_S128x1024_1_0 : S1024x128.Transposes [1, 0] S128x1024
  inb_S128x128_S128x128_0_0 : ∀ a, (![0, 0] : Fin 2 → Nat) a + S128x128.size a ≤ S128x128.size a
  h_S128x128 : 0 < S128x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  slices_S128x128_o0_0_S128x64 : S128x128.Slices ![0, 0] S128x64
  slices_S128x128_o0_64_S128x64 : S128x128.Slices ![0, 64] S128x64
  slices_S128x1024_o0_0_S64x1024 : S128x1024.Slices ![0, 0] S64x1024
  slices_S128x1024_o64_0_S64x1024 : S128x1024.Slices ![64, 0] S64x1024
  slices_S128x64_o0_0_S128x1 : S128x64.Slices ![0, 0] S128x1
  slices_S64x1024_o0_0_S1x1024 : S64x1024.Slices ![0, 0] S1x1024
  broadcasts_S128x1_S128x1024 : S128x1.Broadcasts S128x1024
  broadcasts_S1x1024_S128x1024 : S1x1024.Broadcasts S128x1024
  slices_S128x64_o0_1_S128x1 : S128x64.Slices ![0, 1] S128x1
  slices_S64x1024_o1_0_S1x1024 : S64x1024.Slices ![1, 0] S1x1024
  slices_S128x64_o0_2_S128x1 : S128x64.Slices ![0, 2] S128x1
  slices_S64x1024_o2_0_S1x1024 : S64x1024.Slices ![2, 0] S1x1024
  slices_S128x64_o0_3_S128x1 : S128x64.Slices ![0, 3] S128x1
  slices_S64x1024_o3_0_S1x1024 : S64x1024.Slices ![3, 0] S1x1024
  slices_S128x64_o0_4_S128x1 : S128x64.Slices ![0, 4] S128x1
  slices_S64x1024_o4_0_S1x1024 : S64x1024.Slices ![4, 0] S1x1024
  slices_S128x64_o0_5_S128x1 : S128x64.Slices ![0, 5] S128x1
  slices_S64x1024_o5_0_S1x1024 : S64x1024.Slices ![5, 0] S1x1024
  slices_S128x64_o0_6_S128x1 : S128x64.Slices ![0, 6] S128x1
  slices_S64x1024_o6_0_S1x1024 : S64x1024.Slices ![6, 0] S1x1024
  slices_S128x64_o0_7_S128x1 : S128x64.Slices ![0, 7] S128x1
  slices_S64x1024_o7_0_S1x1024 : S64x1024.Slices ![7, 0] S1x1024
  slices_S128x64_o0_8_S128x1 : S128x64.Slices ![0, 8] S128x1
  slices_S64x1024_o8_0_S1x1024 : S64x1024.Slices ![8, 0] S1x1024
  slices_S128x64_o0_9_S128x1 : S128x64.Slices ![0, 9] S128x1
  slices_S64x1024_o9_0_S1x1024 : S64x1024.Slices ![9, 0] S1x1024
  slices_S128x64_o0_10_S128x1 : S128x64.Slices ![0, 10] S128x1
  slices_S64x1024_o10_0_S1x1024 : S64x1024.Slices ![10, 0] S1x1024
  slices_S128x64_o0_11_S128x1 : S128x64.Slices ![0, 11] S128x1
  slices_S64x1024_o11_0_S1x1024 : S64x1024.Slices ![11, 0] S1x1024
  slices_S128x64_o0_12_S128x1 : S128x64.Slices ![0, 12] S128x1
  slices_S64x1024_o12_0_S1x1024 : S64x1024.Slices ![12, 0] S1x1024
  slices_S128x64_o0_13_S128x1 : S128x64.Slices ![0, 13] S128x1
  slices_S64x1024_o13_0_S1x1024 : S64x1024.Slices ![13, 0] S1x1024
  slices_S128x64_o0_14_S128x1 : S128x64.Slices ![0, 14] S128x1
  slices_S64x1024_o14_0_S1x1024 : S64x1024.Slices ![14, 0] S1x1024
  slices_S128x64_o0_15_S128x1 : S128x64.Slices ![0, 15] S128x1
  slices_S64x1024_o15_0_S1x1024 : S64x1024.Slices ![15, 0] S1x1024
  slices_S128x64_o0_16_S128x1 : S128x64.Slices ![0, 16] S128x1
  slices_S64x1024_o16_0_S1x1024 : S64x1024.Slices ![16, 0] S1x1024
  slices_S128x64_o0_17_S128x1 : S128x64.Slices ![0, 17] S128x1
  slices_S64x1024_o17_0_S1x1024 : S64x1024.Slices ![17, 0] S1x1024
  slices_S128x64_o0_18_S128x1 : S128x64.Slices ![0, 18] S128x1
  slices_S64x1024_o18_0_S1x1024 : S64x1024.Slices ![18, 0] S1x1024
  slices_S128x64_o0_19_S128x1 : S128x64.Slices ![0, 19] S128x1
  slices_S64x1024_o19_0_S1x1024 : S64x1024.Slices ![19, 0] S1x1024
  slices_S128x64_o0_20_S128x1 : S128x64.Slices ![0, 20] S128x1
  slices_S64x1024_o20_0_S1x1024 : S64x1024.Slices ![20, 0] S1x1024
  slices_S128x64_o0_21_S128x1 : S128x64.Slices ![0, 21] S128x1
  slices_S64x1024_o21_0_S1x1024 : S64x1024.Slices ![21, 0] S1x1024
  slices_S128x64_o0_22_S128x1 : S128x64.Slices ![0, 22] S128x1
  slices_S64x1024_o22_0_S1x1024 : S64x1024.Slices ![22, 0] S1x1024
  slices_S128x64_o0_23_S128x1 : S128x64.Slices ![0, 23] S128x1
  slices_S64x1024_o23_0_S1x1024 : S64x1024.Slices ![23, 0] S1x1024
  slices_S128x64_o0_24_S128x1 : S128x64.Slices ![0, 24] S128x1
  slices_S64x1024_o24_0_S1x1024 : S64x1024.Slices ![24, 0] S1x1024
  slices_S128x64_o0_25_S128x1 : S128x64.Slices ![0, 25] S128x1
  slices_S64x1024_o25_0_S1x1024 : S64x1024.Slices ![25, 0] S1x1024
  slices_S128x64_o0_26_S128x1 : S128x64.Slices ![0, 26] S128x1
  slices_S64x1024_o26_0_S1x1024 : S64x1024.Slices ![26, 0] S1x1024
  slices_S128x64_o0_27_S128x1 : S128x64.Slices ![0, 27] S128x1
  slices_S64x1024_o27_0_S1x1024 : S64x1024.Slices ![27, 0] S1x1024
  slices_S128x64_o0_28_S128x1 : S128x64.Slices ![0, 28] S128x1
  slices_S64x1024_o28_0_S1x1024 : S64x1024.Slices ![28, 0] S1x1024
  slices_S128x64_o0_29_S128x1 : S128x64.Slices ![0, 29] S128x1
  slices_S64x1024_o29_0_S1x1024 : S64x1024.Slices ![29, 0] S1x1024
  slices_S128x64_o0_30_S128x1 : S128x64.Slices ![0, 30] S128x1
  slices_S64x1024_o30_0_S1x1024 : S64x1024.Slices ![30, 0] S1x1024
  slices_S128x64_o0_31_S128x1 : S128x64.Slices ![0, 31] S128x1
  slices_S64x1024_o31_0_S1x1024 : S64x1024.Slices ![31, 0] S1x1024
  slices_S128x64_o0_32_S128x1 : S128x64.Slices ![0, 32] S128x1
  slices_S64x1024_o32_0_S1x1024 : S64x1024.Slices ![32, 0] S1x1024
  slices_S128x64_o0_33_S128x1 : S128x64.Slices ![0, 33] S128x1
  slices_S64x1024_o33_0_S1x1024 : S64x1024.Slices ![33, 0] S1x1024
  slices_S128x64_o0_34_S128x1 : S128x64.Slices ![0, 34] S128x1
  slices_S64x1024_o34_0_S1x1024 : S64x1024.Slices ![34, 0] S1x1024
  slices_S128x64_o0_35_S128x1 : S128x64.Slices ![0, 35] S128x1
  slices_S64x1024_o35_0_S1x1024 : S64x1024.Slices ![35, 0] S1x1024
  slices_S128x64_o0_36_S128x1 : S128x64.Slices ![0, 36] S128x1
  slices_S64x1024_o36_0_S1x1024 : S64x1024.Slices ![36, 0] S1x1024
  slices_S128x64_o0_37_S128x1 : S128x64.Slices ![0, 37] S128x1
  slices_S64x1024_o37_0_S1x1024 : S64x1024.Slices ![37, 0] S1x1024
  slices_S128x64_o0_38_S128x1 : S128x64.Slices ![0, 38] S128x1
  slices_S64x1024_o38_0_S1x1024 : S64x1024.Slices ![38, 0] S1x1024
  slices_S128x64_o0_39_S128x1 : S128x64.Slices ![0, 39] S128x1
  slices_S64x1024_o39_0_S1x1024 : S64x1024.Slices ![39, 0] S1x1024
  slices_S128x64_o0_40_S128x1 : S128x64.Slices ![0, 40] S128x1
  slices_S64x1024_o40_0_S1x1024 : S64x1024.Slices ![40, 0] S1x1024
  slices_S128x64_o0_41_S128x1 : S128x64.Slices ![0, 41] S128x1
  slices_S64x1024_o41_0_S1x1024 : S64x1024.Slices ![41, 0] S1x1024
  slices_S128x64_o0_42_S128x1 : S128x64.Slices ![0, 42] S128x1
  slices_S64x1024_o42_0_S1x1024 : S64x1024.Slices ![42, 0] S1x1024
  slices_S128x64_o0_43_S128x1 : S128x64.Slices ![0, 43] S128x1
  slices_S64x1024_o43_0_S1x1024 : S64x1024.Slices ![43, 0] S1x1024
  slices_S128x64_o0_44_S128x1 : S128x64.Slices ![0, 44] S128x1
  slices_S64x1024_o44_0_S1x1024 : S64x1024.Slices ![44, 0] S1x1024
  slices_S128x64_o0_45_S128x1 : S128x64.Slices ![0, 45] S128x1
  slices_S64x1024_o45_0_S1x1024 : S64x1024.Slices ![45, 0] S1x1024
  slices_S128x64_o0_46_S128x1 : S128x64.Slices ![0, 46] S128x1
  slices_S64x1024_o46_0_S1x1024 : S64x1024.Slices ![46, 0] S1x1024
  slices_S128x64_o0_47_S128x1 : S128x64.Slices ![0, 47] S128x1
  slices_S64x1024_o47_0_S1x1024 : S64x1024.Slices ![47, 0] S1x1024
  slices_S128x64_o0_48_S128x1 : S128x64.Slices ![0, 48] S128x1
  slices_S64x1024_o48_0_S1x1024 : S64x1024.Slices ![48, 0] S1x1024
  slices_S128x64_o0_49_S128x1 : S128x64.Slices ![0, 49] S128x1
  slices_S64x1024_o49_0_S1x1024 : S64x1024.Slices ![49, 0] S1x1024
  slices_S128x64_o0_50_S128x1 : S128x64.Slices ![0, 50] S128x1
  slices_S64x1024_o50_0_S1x1024 : S64x1024.Slices ![50, 0] S1x1024
  slices_S128x64_o0_51_S128x1 : S128x64.Slices ![0, 51] S128x1
  slices_S64x1024_o51_0_S1x1024 : S64x1024.Slices ![51, 0] S1x1024
  slices_S128x64_o0_52_S128x1 : S128x64.Slices ![0, 52] S128x1
  slices_S64x1024_o52_0_S1x1024 : S64x1024.Slices ![52, 0] S1x1024
  slices_S128x64_o0_53_S128x1 : S128x64.Slices ![0, 53] S128x1
  slices_S64x1024_o53_0_S1x1024 : S64x1024.Slices ![53, 0] S1x1024
  slices_S128x64_o0_54_S128x1 : S128x64.Slices ![0, 54] S128x1
  slices_S64x1024_o54_0_S1x1024 : S64x1024.Slices ![54, 0] S1x1024
  slices_S128x64_o0_55_S128x1 : S128x64.Slices ![0, 55] S128x1
  slices_S64x1024_o55_0_S1x1024 : S64x1024.Slices ![55, 0] S1x1024
  slices_S128x64_o0_56_S128x1 : S128x64.Slices ![0, 56] S128x1
  slices_S64x1024_o56_0_S1x1024 : S64x1024.Slices ![56, 0] S1x1024
  slices_S128x64_o0_57_S128x1 : S128x64.Slices ![0, 57] S128x1
  slices_S64x1024_o57_0_S1x1024 : S64x1024.Slices ![57, 0] S1x1024
  slices_S128x64_o0_58_S128x1 : S128x64.Slices ![0, 58] S128x1
  slices_S64x1024_o58_0_S1x1024 : S64x1024.Slices ![58, 0] S1x1024
  slices_S128x64_o0_59_S128x1 : S128x64.Slices ![0, 59] S128x1
  slices_S64x1024_o59_0_S1x1024 : S64x1024.Slices ![59, 0] S1x1024
  slices_S128x64_o0_60_S128x1 : S128x64.Slices ![0, 60] S128x1
  slices_S64x1024_o60_0_S1x1024 : S64x1024.Slices ![60, 0] S1x1024
  slices_S128x64_o0_61_S128x1 : S128x64.Slices ![0, 61] S128x1
  slices_S64x1024_o61_0_S1x1024 : S64x1024.Slices ![61, 0] S1x1024
  slices_S128x64_o0_62_S128x1 : S128x64.Slices ![0, 62] S128x1
  slices_S64x1024_o62_0_S1x1024 : S64x1024.Slices ![62, 0] S1x1024
  slices_S128x64_o0_63_S128x1 : S128x64.Slices ![0, 63] S128x1
  slices_S64x1024_o63_0_S1x1024 : S64x1024.Slices ![63, 0] S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x1024 : S512x1024.ShapeCasts S512x1024
  transposes_S1024x1024_p1_0_S1024x1024 : S1024x1024.Transposes [1, 0] S1024x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .f32 = 32 ∨ (Rect.block (s := S4096x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .f32 = 32 ∨ (Rect.block (s := S4096x4096) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg2) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x128 : Shape := ⟨2, ![1024, 128]⟩
abbrev S1024x64 : Shape := ⟨2, ![1024, 64]⟩
abbrev S1024x64x1 : Shape := ⟨3, ![1024, 64, 1]⟩
abbrev S64x1024 : Shape := ⟨2, ![64, 1024]⟩
abbrev S1x64x1024 : Shape := ⟨3, ![1, 64, 1024]⟩
abbrev S1024x64x1024 : Shape := ⟨3, ![1024, 64, 1024]⟩
abbrev S_ : Shape := ⟨0, ![]⟩
abbrev S1024x1024 : Shape := ⟨2, ![1024, 1024]⟩
abbrev S1024x4096 : Shape := ⟨2, ![1024, 4096]⟩
abbrev S4096x4096 : Shape := ⟨2, ![4096, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x128, .f32⟩
  | .hbm, ⟨3, _⟩ => ⟨S1024x128, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64x1, .f32⟩
  | .hbm, ⟨9, _⟩ => ⟨S64x1024, .f32⟩
  | .hbm, ⟨10, _⟩ => ⟨S1x64x1024, .f32⟩
  | .hbm, ⟨11, _⟩ => ⟨S1024x64x1024, .f32⟩
  | .hbm, ⟨12, _⟩ => ⟨S1024x64x1024, .f32⟩
  | .hbm, ⟨13, _⟩ => ⟨S1024x64x1024, .f32⟩
  | .hbm, ⟨14, _⟩ => ⟨S1024x64x1024, .f32⟩
  | .hbm, ⟨15, _⟩ => ⟨S_, .f32⟩
  | .hbm, ⟨16, _⟩ => ⟨S1024x1024, .f32⟩
  | .hbm, ⟨17, _⟩ => ⟨S1024x64x1, .f32⟩
  | .hbm, ⟨18, _⟩ => ⟨S64x1024, .f32⟩
  | .hbm, ⟨19, _⟩ => ⟨S1x64x1024, .f32⟩
  | .hbm, ⟨20, _⟩ => ⟨S1024x64x1024, .f32⟩
  | .hbm, ⟨21, _⟩ => ⟨S1024x64x1024, .f32⟩
  | .hbm, ⟨22, _⟩ => ⟨S1024x64x1024, .f32⟩
  | .hbm, ⟨23, _⟩ => ⟨S1024x64x1024, .f32⟩
  | .hbm, ⟨24, _⟩ => ⟨S1024x64x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S4096x1024, .f32⟩
  | .hbm, ⟨37, _⟩ => ⟨S1024x4096, .f32⟩
  | .hbm, ⟨38, _⟩ => ⟨S4096x4096, .f32⟩
  | .hbm, ⟨39, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  slices_S1024x128_S1024x64_0_0 : S1024x128.Slices ![0, 0] S1024x64
  slices_S1024x128_S1024x64_0_64 : S1024x128.Slices ![0, 64] S1024x64
  bcast_S1024x64_S1024x64x1_0_1 : S1024x64.BroadcastsInDim S1024x64x1 (![0, 1] : Fin 2 → Fin S1024x64x1.rank)
  transposes_S1024x64_S64x1024_1_0 : S1024x64.Transposes [1, 0] S64x1024
  bcast_S64x1024_S1x64x1024_1_2 : S64x1024.BroadcastsInDim S1x64x1024 (![1, 2] : Fin 2 → Fin S1x64x1024.rank)
  bcast_S1024x64x1_S1024x64x1024_0_1_2 : S1024x64x1.BroadcastsInDim S1024x64x1024 (![0, 1, 2] : Fin 3 → Fin S1024x64x1024.rank)
  bcast_S1x64x1024_S1024x64x1024_0_1_2 : S1x64x1024.BroadcastsInDim S1024x64x1024 (![0, 1, 2] : Fin 3 → Fin S1024x64x1024.rank)
  reducesTo_S1024x64x1024_S1024x1024_d1 : S1024x64x1024.ReducesTo [1] S1024x1024
  h_S_ : 0 < S_.numel
  bcast_S_S1024x1024 : S_.BroadcastsInDim S1024x1024 (![] : Fin 0 → Fin S1024x1024.rank)
  transposes_S4096x1024_S1024x4096_1_0 : S4096x1024.Transposes [1, 0] S1024x4096
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.GaussBodyDef.lean ====
/-
  The value the first kernel stores, as one function of the two blocks it loads.

  The kernel's straight-line body is cut into sixteen consecutive pieces; each piece hands three
  128x1024 values to the next: the running sum of the quadratic terms, the running sum of the
  logarithms, and the last quadratic term not yet added.  Composing the sixteen pieces and the
  closing step gives the stored value.
-/
import proofs.«122097_j1417339208257_1_alg».proof.Proof.Gen.KernelIdeal.Skeleton

noncomputable section

namespace Cert.KernelIdeal.GaussBody

open Cert.KernelIdeal Cert.KernelIdeal.Gen Idealize.ShloMosaic

variable {F : FTy → Type} [FloatOps F]

/-- The stored value of the first kernel from the loaded block of `p` (`v0`) and the loaded
    transpose of `q` (`v1`): the sixteen pieces threaded in order, then the closing step. -/
noncomputable def body0 (v0 : Vec F S128x128 .f32) (v1 : Vec F S128x1024 .f32) : FVec F S128x1024 .f32 :=
  let v3 : FVec F S128x64 .f32 := k0_pay3 v0
  let v4 : FVec F S128x64 .f32 := k0_pay4 v0
  let v5 : FVec F S64x1024 .f32 := k0_pay5 v1
  let v6 : FVec F S64x1024 .f32 := k0_pay6 v1
  let v38 : FVec F S128x1024 .f32 := k0_pay9 v0 v1
  let v50 : FVec F S128x1024 .f32 := k0_pay11 v0 v1
  let v52 : FVec F S128x1024 .f32 := k0_pay12 v0 v1
  let v98 : FVec F S128x1024 .f32 := k0_pay16 v3 v4 v5 v6 v38 v52
  let v110 : FVec F S128x1024 .f32 := k0_pay18 v4 v6 v50
  let v112 : FVec F S128x1024 .f32 := k0_pay19 v3 v4 v5 v6
  let v158 : FVec F S128x1024 .f32 := k0_pay23 v3 v4 v5 v6 v98 v112
  let v170 : FVec F S128x1024 .f32 := k0_pay25 v4 v6 v110
  let v172 : FVec F S128x1024 .f32 := k0_pay26 v3 v4 v5 v6
  let v218 : FVec F S128x1024 .f32 := k0_pay30 v3 v4 v5 v6 v158 v172
  let v230 : FVec F S128x1024 .f32 := k0_pay32 v4 v6 v170
  let v232 : FVec F S128x1024 .f32 := k0_pay33 v3 v4 v5 v6
  let v278 : FVec F S128x1024 .f32 := k0_pay37 v3 v4 v5 v6 v218 v232
  let v290 : FVec F S128x1024 .f32 := k0_pay39 v4 v6 v230
  let v292 : FVec F S128x1024 .f32 := k0_pay40 v3 v4 v5 v6
  let v338 : FVec F S128x1024 .f32 := k0_pay44 v3 v4 v5 v6 v278 v292
  let v350 : FVec F S128x1024 .f32 := k0_pay46 v4 v6 v290
  let v352 : FVec F S128x1024 .f32 := k0_pay47 v3 v4 v5 v6
  let v398 : FVec F S128x1024 .f32 := k0_pay51 v3 v4 v5 v6 v338 v352
  let v410 : FVec F S128x1024 .f32 := k0_pay53 v4 v6 v350
  let v412 : FVec F S128x1024 .f32 := k0_pay54 v3 v4 v5 v6
  let v458 : FVec F S128x1024 .f32 := k0_pay58 v3 v4 v5 v6 v398 v412
  let v470 : FVec F S128x1024 .f32 := k0_pay60 v4 v6 v410
  let v472 : FVec F S128x1024 .f32 := k0_pay61 v3 v4 v5 v6
  let v518 : FVec F S128x1024 .f32 := k0_pay65 v3 v4 v5 v6 v458 v472
  let v530 : FVec F S128x1024 .f32 := k0_pay67 v4 v6 v470
  let v532 : FVec F S128x1024 .f32 := k0_pay68 v3 v4 v5 v6
  let v578 : FVec F S128x1024 .f32 := k0_pay72 v3 v4 v5 v6 v518 v532
  let v590 : FVec F S128x1024 .f32 := k0_pay74 v4 v6 v530
  let v592 : FVec F S128x1024 .f32 := k0_pay75 v3 v4 v5 v6
  let v638 : FVec F S128x1024 .f32 := k0_pay79 v3 v4 v5 v6 v578 v592
  let v650 : FVec F S128x1024 .f32 := k0_pay81 v4 v6 v590
  let v652 : FVec F S128x1024 .f32 := k0_pay82 v3 v4 v5 v6
  let v698 : FVec F S128x1024 .f32 := k0_pay86 v3 v4 v5 v6 v638 v652
  let v710 : FVec F S128x1024 .f32 := k0_pay88 v4 v6 v650
  let v712 : FVec F S128x1024 .f32 := k0_pay89 v3 v4 v5 v6
  let v758 : FVec F S128x1024 .f32 := k0_pay93 v3 v4 v5 v6 v698 v712
  let v770 : FVec F S128x1024 .f32 := k0_pay95 v4 v6 v710
  let v772 : FVec F S128x1024 .f32 := k0_pay96 v3 v4 v5 v6
  let v818 : FVec F S128x1024 .f32 := k0_pay100 v3 v4 v5 v6 v758 v772
  let v830 : FVec F S128x1024 .f32 := k0_pay102 v4 v6 v770
  let v832 : FVec F S128x1024 .f32 := k0_pay103 v3 v4 v5 v6
  let v878 : FVec F S128x1024 .f32 := k0_pay107 v3 v4 v5 v6 v818 v832
  let v890 : FVec F S128x1024 .f32 := k0_pay109 v4 v6 v830
  let v892 : FVec F S128x1024 .f32 := k0_pay110 v3 v4 v5 v6
  let v938 : FVec F S128x1024 .f32 := k0_pay114 v3 v4 v5 v6 v878 v892
  let v950 : FVec F S128x1024 .f32 := k0_pay116 v4 v6 v890
  let v952 : FVec F S128x1024 .f32 := k0_pay117 v3 v4 v5 v6
  k0_pay1 v3 v4 v5 v6 v938 v950 v952

end Cert.KernelIdeal.GaussBody

end
-- ==== Proof.KI.Region0.lean ====
/-
  The first kernel region (the likelihood matrix, eight row blocks of 128 rows) at a parameter `V`, the
  contents of the core's buffers when the region is entered.  Each of the eight points reads a 128-row block of
  `p` and the whole of `q` transposed, and stores the 128 x 1024 block of the matrix whose entries are the
  body's pure function `body0` of those two blocks; the inputs are left in place.
-/
import proofs.«122097_j1417339208257_1_alg».proof.Proof.Gen.KernelIdeal.Launch
import proofs.«122097_j1417339208257_1_alg».proof.Proof.Gen.KernelIdeal.Skeleton
import proofs.«122097_j1417339208257_1_alg».proof.Proof.Gen.KernelIdeal.Points
import proofs.«122097_j1417339208257_1_alg».proof.Proof.GaussBodyDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.GaussBody

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `p` is in its staging buffer at every point, whatever proof data leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The transposed `q`, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a 128 x 128 block and of a 128 x 1024 block. -/
abbrev rP : Rect S128x128 := Rect.unit (s := S128x128) ![0, 0] S128x128.size inb_S128x128_S128x128_0_0
abbrev rQ : Rect S128x1024 := Rect.unit (s := S128x1024) ![0, 0] S128x1024.size inb_S128x1024_S128x1024_0_0

/-- What the body leaves in the result's staging buffer: its one store, of `body0` of the two loaded blocks. -/
def out0_2 (x0 : Vec F S128x128 .f32) (x1 : Vec F S128x1024 .f32) : Vec F S128x1024 .f32 :=
  View.canon [⟨rQ, body0 (View.ld x0 rP) (View.ld x1 rQ)⟩]

/-- The one store covers the buffer. -/
theorem cover0_2 (p0 : Vec F S128x1024 .f32) (y : S128x1024.Idx) :
    ∃ pc ∈ ([⟨rQ, p0⟩] : List (View.Piece (Elt F) S128x1024 .f32)), y ∈ pc.1.set :=
  View.cover_of_tiled [⟨rQ, p0⟩] S128x1024.size (by rfl) y

set_option maxHeartbeats 8000000 in
/-- The body on whole staging buffers, the two inputs at `x0`, `x1` and the result's at anything, runs to its
    return with the inputs as they were and the result's buffer at `out0_2 x0 x1`. -/
theorem sound_kernel0 (c : Dev nD) (E : Set ℕ) (i : grid0.Coords) (arg1 : Memref sig .tc .vmem S128x128 .f32) (harg1 : arg1.IsWhole) (arg2 : Memref sig .tc .vmem S128x1024 .f32) (harg2 : arg2.IsWhole)
    (arg3 : Memref sig .tc .vmem S128x1024 .f32) (harg3 : arg3.IsWhole)
    (x0 : Vec F S128x128 .f32) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gauss_kernel i arg1 harg1 arg2 harg2 arg3 harg3) K := by
  simp only [cc0__gauss_kernel_eq_skeleton]; unfold cc0__gauss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the first pipeline on core `c`: the arrays as the region finds them; after the body at point
    `t` each input's buffer at its block and the result's at `out0_2` of the two input blocks; the invariant the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Kernel1Def.lean ====
/-
  The second kernel region (the chained product and its logarithm, an 8 x 4 grid) — what its body's two stores
  leave: the first product in the scratch buffer, the logarithm of the second in the result's block; and the
  condition under which the first store happens (the point's second coordinate is 0).
-/
import proofs.«122097_j1417339208257_1_alg».proof.Proof.Gen.KernelIdeal.Launch
import proofs.«122097_j1417339208257_1_alg».proof.Proof.Gen.KernelIdeal.Skeleton
import proofs.«122097_j1417339208257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a 512 x 1024 and of a 1024 x 1024 buffer. -/
abbrev rT : Rect S512x1024 := Rect.unit (s := S512x1024) ![0, 0] S512x1024.size inb_S512x1024_S512x1024_0_0
abbrev rG : Rect S1024x1024 := Rect.unit (s := S1024x1024) ![0, 0] S1024x1024.size inb_S1024x1024_S1024x1024_0_0

/-- What the first store leaves in the scratch: the first product, of the loaded blocks. -/
def tmp1 (x0 : Vec F S512x1024 .f32) (x1 : Vec F S1024x1024 .f32) : Vec F S512x1024 .f32 :=
  View.canon [⟨rT, k1_pay1 (View.ld x0 rT) (View.ld x1 rG)⟩]

/-- What the last store leaves in the result's buffer, from the scratch's contents and the block of `k2`. -/
def out1_3 (s : Vec F S512x1024 .f32) (x2 : Vec F S1024x1024 .f32) : Vec F S512x1024 .f32 :=
  View.canon [⟨rT, k1_pay2 (View.ld s rT) (View.ld x2 rG)⟩]

/-- One whole-rectangle store covers a 512 x 1024 buffer. -/
theorem coverT (p0 : Vec F S512x1024 .f32) (y : S512x1024.Idx) :
    ∃ pc ∈ ([⟨rT, p0⟩] : List (View.Piece (Elt F) S512x1024 .f32)), y ∈ pc.1.set :=
  View.cover_of_tiled [⟨rT, p0⟩] S512x1024.size (by rfl) y

/-- The body's branch condition, from the grid coordinates: the second coordinate is 0. -/
abbrev cond1 (i : grid1.Coords) : Prop := (Scalar.cmpi .ne (Scalar.extui (Scalar.cmpi .eq (BitVec.ofNat 32 (i 1).val) 0#32)) 0#32) = 1#1
/-- It holds at the points that start a row of the grid — decided over the grid. -/
theorem hcond1 : ∀ t : Fin cfg1.N, cond1 (grid1.coords t) ↔ t.val % 4 = 0 :=
  (by decide +kernel : ∀ t : Fin grid1.N, cond1 (grid1.coords t) ↔ t.val % 4 = 0)

end Cert.KernelIdeal.Hand

end
-- ==== Proof.KI.Kernel1.lean ====
/-
  The second kernel's body run in each of its two cases.  At a point whose second coordinate is 0 the body
  overwrites its scratch with the first product and stores the logarithm of the second product, taken of the
  scratch's new contents; at any other point it reads the scratch as the earlier point left it.
-/
import proofs.«122097_j1417339208257_1_alg».proof.Proof.Gen.KernelIdeal.Launch
import proofs.«122097_j1417339208257_1_alg».proof.Proof.Gen.KernelIdeal.Skeleton
import proofs.«122097_j1417339208257_1_alg».proof.Proof.Gen.KernelIdeal.Points
import proofs.«122097_j1417339208257_1_alg».proof.Proof.KI.Kernel1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that starts a row: the scratch is overwritten with the first product, the result's buffer gets the
    logarithm of the second. -/
theorem sound_kernel1_first (c : Dev nD) (E : Set ℕ) (i : grid1.Coords) (hc : cond1 i)
    (arg2 : Memref sig .tc .vmem S512x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole)
    (x0 : Vec F S512x1024 .f32) (x1 : Vec F S1024x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 (tmp1 x0 x1) x2) ∗ owns (c : Thread nD τ) arg6 fullShare (tmp1 x0 x1)) -∗ K ⟨⟩))
      ⊢ wp frame (wpE (defs₀ (F := F)) Variants.none c none) E (cc1__chain_kernel i arg2 harg2 arg3 harg3 arg4 harg4 arg5 harg5 arg6 harg6) K := by
  simp only [cc1__chain_kernel_eq_skeleton]; unfold cc1__chain_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    -- the result's one store covers its buffer; the value it stores reads the scratch back after the scratch's own
    -- covering store, which is that store's value at the rectangle's indices
    refine (View.read_writes_eq_canon _ _ _ (coverT _)).trans ?_
    sl_unfold_run_names
    rw [View.readCov_eq_canon']
    rfl
  iexists _; isplitr
  swap; · iexact H6
  ipureintro
  sl_unfold_run_names
  exact View.read_writes_eq_canon _ _ _ (coverT _)

set_option maxHeartbeats 4000000 in
/-- Any other point: the scratch is read and kept, the result's buffer gets the logarithm of the second product. -/
theorem sound_kernel1_later (c : Dev nD) (E : Set ℕ) (i : grid1.Coords) (hc : ¬cond1 i)
    (arg2 : Memref sig .tc .vmem S512x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole)
    (x2 : Vec F S1024x1024 .f32) (s : Vec F S512x1024 .f32) (K : PUnit → sProp 𝕄) :
    iprop(owns (c : Thread nD τ) arg4 fullShare x2
        ∗ (∃ d, owns (c : Thread nD τ) arg5 fullShare d) ∗ owns (c : Thread nD τ) arg6 fullShare s
        ∗ (iprop(owns (c : Thread nD τ) arg4 fullShare x2
            ∗ owns (c : Thread nD τ) arg5 fullShare (out1_3 s x2) ∗ owns (c : Thread nD τ) arg6 fullShare s) -∗ K ⟨⟩))
      ⊢ wp frame (wpE (defs₀ (F := F)) Variants.none c none) E (cc1__chain_kernel i arg2 harg2 arg3 harg3 arg4 harg4 arg5 harg5 arg6 harg6) K := by
  simp only [cc1__chain_kernel_eq_skeleton]; unfold cc1__chain_kernel_skel
  unfold owns
  iintro ⟨⟨%f2, %hf2, H2⟩, ⟨%d5, %f5, -, H5⟩, ⟨%f6, %hf6, H6⟩, Hk⟩
  subst hf2; subst hf6
  sl_exec (disch := first | exact hc)
  sl_step
  iapply Hk
  isplitl [H2]
  · iexists f2; isplitr; · ipureintro; rfl
    iexact H2
  isplitl [H5]
  · iexists _; isplitr
    swap; · iexact H5
    ipureintro
    exact View.read_writes_eq_canon _ _ _ (coverT _)
  iexists f6; isplitr; · ipureintro; rfl
  iexact H6

end Cert.KernelIdeal.Hand

end
-- ==== Proof.KI.Region1.lean ====
/-
  The second kernel region at a parameter `V`, the contents of the core's buffers when the region is entered:
  what its scratch buffer holds after each point (overwritten at the points that start a row of the grid, carried
  at the others), the region's invariant holding it, the proof data and the body obligation at a generic point.
-/
import proofs.«122097_j1417339208257_1_alg».proof.Proof.Gen.KernelIdeal.Launch
import proofs.«122097_j1417339208257_1_alg».proof.Proof.Gen.KernelIdeal.Skeleton
import proofs.«122097_j1417339208257_1_alg».proof.Proof.Gen.KernelIdeal.Points
import proofs.«122097_j1417339208257_1_alg».proof.Proof.KI.Kernel1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The scratch buffer, point by point -/

/-- The kernel's scratch operand: a whole scoped buffer of its own. -/
abbrev scM1 : Memref sig .tc .vmem S512x1024 .f32 := Memref.whole cc1_scratch0

/-- What the scratch holds after the body at position `n`: at a position that starts a row of the grid the first
    product of that point's blocks, elsewhere what the position before left. -/
def scrAt (c : Dev nD) : (n : ℕ) → n < cfg1.N → Vec F S512x1024 .f32
  | 0, hn => tmp1 (iblk1 V c 0 ⟨0, hn⟩) (iblk1 V c 1 ⟨0, hn⟩)
  | n + 1, hn =>
    if (n + 1) % 4 = 0 then tmp1 (iblk1 V c 0 ⟨n + 1, hn⟩) (iblk1 V c 1 ⟨n + 1, hn⟩)
    else scrAt c n (Nat.lt_of_succ_lt hn)

theorem scrAt_first (c : Dev nD) (t : Fin cfg1.N) (h : t.val % 4 = 0) :
    scrAt V c t.val t.isLt = tmp1 (iblk1 V c 0 t) (iblk1 V c 1 t) := by
  obtain ⟨n, hn⟩ := t
  cases n with
  | zero => rfl
  | succ n => exact if_pos h

theorem scrAt_later (c : Dev nD) (t : Fin cfg1.N) (h : ¬t.val % 4 = 0) :
    scrAt V c t.val t.isLt = scrAt V c (t.val - 1) (Nat.lt_of_le_of_lt (Nat.sub_le _ _) t.isLt) := by
  obtain ⟨n, hn⟩ := t
  cases n with
  | zero => exact absurd (Nat.zero_mod 4) h
  | succ n => exact (if_neg h).trans rfl

/-! ## The region's invariant -/

/-- The scoped buffers of the core that are neither a staging buffer of this region nor its scratch, each whole at
    some contents. -/
def keep5 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands the region, with the scratch split out. -/
theorem PhiA1_split (c : Dev nD) :
    (Pipeline.ΦA spec1 c : sProp 𝕄) ⊢ iprop(keep5 c ∗ (∃ d, owns (c : Thread nD τ) scM1 fullShare d) ∗ (∃ r, prngReg c r)) := by
  unfold Pipeline.ΦA keep5; rw [scopedRest1_eq]
  simp only [scM1, owns_whole]
  iintro ⟨⟨Ha, Hb, Hc, Hd, He, Hs⟩, Hg⟩
  isplitl [Ha Hb Hc Hd He]
  · isplitl [Ha]; · iexact Ha
    isplitl [Hb]; · iexact Hb
    isplitl [Hc]; · iexact Hc
    isplitl [Hd]; · iexact Hd
    iexact He
  isplitl [Hs]; · iexact Hs
  iexact Hg

/-- And back. -/
theorem PhiA1_join (c : Dev nD) :
    iprop(keep5 c ∗ (∃ d, owns (c : Thread nD τ) scM1 fullShare d) ∗ (∃ r, prngReg c r)) ⊢ (Pipeline.ΦA spec1 c : sProp 𝕄) := by
  unfold Pipeline.ΦA keep5; rw [scopedRest1_eq]
  simp only [scM1, owns_whole]
  iintro ⟨⟨Ha, Hb, Hc, Hd, He⟩, Hs, Hg⟩
  isplitl [Ha Hb Hc Hd He Hs]
  · isplitl [Ha]; · iexact Ha
    isplitl [Hb]; · iexact Hb
    isplitl [Hc]; · iexact Hc
    isplitl [Hd]; · iexact Hd
    isplitl [He]; · iexact He
    iexact Hs
  iexact Hg

/-- The region's invariant before position `n`: before the first point what the launch hands over (every scoped
    buffer at anything); afterwards the same with the scratch at what the point before left in it. -/
def PhiS1 (c : Dev nD) : (n : ℕ) → n ≤ cfg1.N → sProp 𝕄
  | 0, _ => Pipeline.ΦA spec1 c
  | n + 1, hn => iprop(keep5 c ∗ owns (c : Thread nD τ) scM1 fullShare (scrAt V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(keep5 c ∗ owns (c : Thread nD τ) scM1 fullShare (scrAt V c n hn) ∗ (∃ r, prngReg c r)) := rfl

theorem PhiS1_pos (c : Dev nD) (n : ℕ) (h : n ≤ cfg1.N) (hz : n ≠ 0) :
    PhiS1 V c n h = iprop(keep5 c ∗ owns (c : Thread nD τ) scM1 fullShare (scrAt V c (n - 1) (by omega)) ∗ (∃ r, prngReg c r)) := by
  cases n with
  | zero => exact absurd rfl hz
  | succ n => rfl

/-! ## The region's proof data -/

/-- The proof data of the second pipeline on core `c`: the arrays as the region finds them; after the body at point
    `t` each input's buffer at its block and the result's at the logarithm of the second product, of the scratch's
    contents there and the point's block of `k2`; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scrAt V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (scrAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.Region1Body.lean ====
/-
  The second kernel region's body obligation at a generic point, and what its invariant gives back at the end.
  A point that starts a row of the grid takes the scratch at anything (at the very first point, what the launch
  hands over; later, what the row before left) and leaves it at the first product of the point's blocks; any
  other point takes it at what the point before left and leaves it there.
-/
import proofs.«122097_j1417339208257_1_alg».proof.Proof.Gen.KernelIdeal.Launch
import proofs.«122097_j1417339208257_1_alg».proof.Proof.Gen.KernelIdeal.Skeleton
import proofs.«122097_j1417339208257_1_alg».proof.Proof.Gen.KernelIdeal.Points
import proofs.«122097_j1417339208257_1_alg».proof.Proof.KI.Kernel1
import proofs.«122097_j1417339208257_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases h0 : t.val % 4 = 0
  · rw [scrAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨Hk5, HS, Hg⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hk5 HS Hg]
      · isplitl [Hk5]; · iexact Hk5
        isplitl [HS]; · iexact HS
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨Hk5, HS, Hg⟩, Ho, ⟨%d0, H0⟩, ⟨%d1, H1⟩, ⟨%d2, H2⟩, ⟨%d3, H3⟩⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [Hk5 HS Hg]
      · isplitl [Hk5]; · iexact Hk5
        isplitl [HS]; · iexact HS
        iexact Hg
      isplitl [Ho]; · iexact Ho
      isplitl [H0]; · iexact H0
      isplitl [H1]; · iexact H1
      isplitl [H2]; · iexact H2
      iexact H3
  · have hz : t.val ≠ 0 := fun e => h0 (by rw [e])
    rw [scrAt_later V c t h0]
    rw [PhiS1_castSucc V c t, PhiS1_pos V c _ _ hz]
    iintro ⟨⟨Hk5, HS, Hg⟩, Ho, ⟨%d0, H0⟩, ⟨%d1, H1⟩, ⟨%d2, H2⟩, ⟨%d3, H3⟩⟩
    iapply (sound_kernel1_later c Set.univ (grid1.coords t) (fun h => h0 ((hcond1 t).mp h)) _ _ _ _ _ _ _ _ _ _ (iblk1 V c 2 t) (scrAt V c (t.val - 1) (Nat.lt_of_le_of_lt (Nat.sub_le _ _) t.isLt)) _)
    isplitl [H2]; · iexact H2
    isplitl [H3]; · iexists _; iexact H3
    isplitl [HS]; · iexact HS
    iintro ⟨H2, H3, HS⟩
    isplitl [Hk5 HS Hg]
    · isplitl [Hk5]; · iexact Hk5
      isplitl [HS]; · iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives back what the launch handed over: the scratch's contents are forgotten. -/
theorem Phi1_out (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  refine .trans ?_ (PhiA1_join c)
  iintro ⟨Hk5, HS, Hg⟩
  isplitl [Hk5]; · iexact Hk5
  isplitl [HS]; · iexists _; iexact HS
  iexact Hg

end Cert.KernelIdeal.Hand

end
-- ==== Proof.KI.Run.lean ====
/-
  The run of the whole program: one host operation (the transpose of `q`), the first kernel region, the second.
  The contents of the core's unscoped buffers at each boundary are a fold from the launch memory: after the host
  operation; after the first region (its result array at what its eight write-backs leave); after the second
  (its result array at what its thirty-two write-backs leave).  Every weakly fair execution terminates, without a
  fault, with every unscoped buffer at the last boundary's contents — the arguments as launched, the two results
  at what the regions' proof data compute.
-/
import proofs.«122097_j1417339208257_1_alg».proof.Proof.Gen.KernelIdeal.Launch
import proofs.«122097_j1417339208257_1_alg».proof.Proof.Gen.KernelIdeal.Skeleton
import proofs.«122097_j1417339208257_1_alg».proof.Proof.Gen.KernelIdeal.Points
import proofs.«122097_j1417339208257_1_alg».proof.Proof.KI.Region0
import proofs.«122097_j1417339208257_1_alg».proof.Proof.KI.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operation writes the transposed `q` only. -/
theorem hostOps0_keeps (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := hostOps0_keeps m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 2).trans (((dat1 (V2 m ρ) c).arrAt_in 2 rfl _).trans (A_eq1 (V2 m ρ) c 2))
    _ = W1 m ρ c (Proc.devRef .tc main_arg1) := W2_of_ne m ρ c main_arg1 (by decide)
    _ = W0 m ρ c (Proc.devRef .tc main_arg1) := hostOps0_keeps m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := hostOps0_keeps m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := hostOps0_keeps m ρ c main_arg3 (by decide)
    _ = m ((c : Thread nD τ).loc main_arg3) := rfl

/-- The second result is the first region's result array, which the second region only reads. -/
theorem W3_main_v1 (c : Dev nD) : W3 m ρ c (Proc.devRef .tc main_v1) = (dat0 (V1 m ρ) c).arrAt 2 cfg0.N :=
  ((W3_arr m ρ c 1).trans (((dat1 (V2 m ρ) c).arrAt_in 1 rfl _).trans (A_eq1 (V2 m ρ) c 1))).trans (W2_arr m ρ c 2)
/-- The first result is the second region's result array. -/
theorem W3_main_v2 (c : Dev nD) : W3 m ρ c (Proc.devRef .tc main_v2) = (dat1 (V2 m ρ) c).arrAt 3 cfg1.N :=
  W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its
    invariant takes the scoped buffers and the generator register in, carries the scratch, and gives them back with
    the scratch's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := Phi1_out (V2 m ρ) c
    rw [show (pdats m ρ 1 c).Φ (Fin.last _) = (dat1 (V2 m ρ) c).Φ (Fin.last cfg1.N) from rfl]
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

end Cert.KernelIdeal.Hand

end
-- ==== Proof.KB.GaussBodyDef.lean ====
/-
  The value the first kernel stores, as one function of the two blocks it loads.

  The kernel's straight-line body is cut into sixteen consecutive pieces; each piece hands three
  128x1024 values to the next: the running sum of the quadratic terms, the running sum of the
  logarithms, and the last quadratic term not yet added.  Composing the sixteen pieces and the
  closing step gives the stored value.
-/
import proofs.«122097_j1417339208257_1_alg».proof.Proof.Gen.Kernel.Skeleton

noncomputable section

namespace Cert.Kernel.GaussBody

open Cert.Kernel Cert.Kernel.Gen Idealize.ShloMosaic

variable {F : FTy → Type} [FloatOps F]

/-- The stored value of the first kernel from the loaded block of `p` (`v0`) and the loaded
    transpose of `q` (`v1`): the sixteen pieces threaded in order, then the closing step. -/
noncomputable def body0 (v0 : Vec F S128x128 .f32) (v1 : Vec F S128x1024 .f32) : FVec F S128x1024 .f32 :=
  let v3 : FVec F S128x64 .f32 := k0_pay3 v0
  let v4 : FVec F S128x64 .f32 := k0_pay4 v0
  let v5 : FVec F S64x1024 .f32 := k0_pay5 v1
  let v6 : FVec F S64x1024 .f32 := k0_pay6 v1
  let v38 : FVec F S128x1024 .f32 := k0_pay9 v0 v1
  let v50 : FVec F S128x1024 .f32 := k0_pay11 v0 v1
  let v52 : FVec F S128x1024 .f32 := k0_pay12 v0 v1
  let v98 : FVec F S128x1024 .f32 := k0_pay16 v3 v4 v5 v6 v38 v52
  let v110 : FVec F S128x1024 .f32 := k0_pay18 v4 v6 v50
  let v112 : FVec F S128x1024 .f32 := k0_pay19 v3 v4 v5 v6
  let v158 : FVec F S128x1024 .f32 := k0_pay23 v3 v4 v5 v6 v98 v112
  let v170 : FVec F S128x1024 .f32 := k0_pay25 v4 v6 v110
  let v172 : FVec F S128x1024 .f32 := k0_pay26 v3 v4 v5 v6
  let v218 : FVec F S128x1024 .f32 := k0_pay30 v3 v4 v5 v6 v158 v172
  let v230 : FVec F S128x1024 .f32 := k0_pay32 v4 v6 v170
  let v232 : FVec F S128x1024 .f32 := k0_pay33 v3 v4 v5 v6
  let v278 : FVec F S128x1024 .f32 := k0_pay37 v3 v4 v5 v6 v218 v232
  let v290 : FVec F S128x1024 .f32 := k0_pay39 v4 v6 v230
  let v292 : FVec F S128x1024 .f32 := k0_pay40 v3 v4 v5 v6
  let v338 : FVec F S128x1024 .f32 := k0_pay44 v3 v4 v5 v6 v278 v292
  let v350 : FVec F S128x1024 .f32 := k0_pay46 v4 v6 v290
  let v352 : FVec F S128x1024 .f32 := k0_pay47 v3 v4 v5 v6
  let v398 : FVec F S128x1024 .f32 := k0_pay51 v3 v4 v5 v6 v338 v352
  let v410 : FVec F S128x1024 .f32 := k0_pay53 v4 v6 v350
  let v412 : FVec F S128x1024 .f32 := k0_pay54 v3 v4 v5 v6
  let v458 : FVec F S128x1024 .f32 := k0_pay58 v3 v4 v5 v6 v398 v412
  let v470 : FVec F S128x1024 .f32 := k0_pay60 v4 v6 v410
  let v472 : FVec F S128x1024 .f32 := k0_pay61 v3 v4 v5 v6
  let v518 : FVec F S128x1024 .f32 := k0_pay65 v3 v4 v5 v6 v458 v472
  let v530 : FVec F S128x1024 .f32 := k0_pay67 v4 v6 v470
  let v532 : FVec F S128x1024 .f32 := k0_pay68 v3 v4 v5 v6
  let v578 : FVec F S128x1024 .f32 := k0_pay72 v3 v4 v5 v6 v518 v532
  let v590 : FVec F S128x1024 .f32 := k0_pay74 v4 v6 v530
  let v592 : FVec F S128x1024 .f32 := k0_pay75 v3 v4 v5 v6
  let v638 : FVec F S128x1024 .f32 := k0_pay79 v3 v4 v5 v6 v578 v592
  let v650 : FVec F S128x1024 .f32 := k0_pay81 v4 v6 v590
  let v652 : FVec F S128x1024 .f32 := k0_pay82 v3 v4 v5 v6
  let v698 : FVec F S128x1024 .f32 := k0_pay86 v3 v4 v5 v6 v638 v652
  let v710 : FVec F S128x1024 .f32 := k0_pay88 v4 v6 v650
  let v712 : FVec F S128x1024 .f32 := k0_pay89 v3 v4 v5 v6
  let v758 : FVec F S128x1024 .f32 := k0_pay93 v3 v4 v5 v6 v698 v712
  let v770 : FVec F S128x1024 .f32 := k0_pay95 v4 v6 v710
  let v772 : FVec F S128x1024 .f32 := k0_pay96 v3 v4 v5 v6
  let v818 : FVec F S128x1024 .f32 := k0_pay100 v3 v4 v5 v6 v758 v772
  let v830 : FVec F S128x1024 .f32 := k0_pay102 v4 v6 v770
  let v832 : FVec F S128x1024 .f32 := k0_pay103 v3 v4 v5 v6
  let v878 : FVec F S128x1024 .f32 := k0_pay107 v3 v4 v5 v6 v818 v832
  let v890 : FVec F S128x1024 .f32 := k0_pay109 v4 v6 v830
  let v892 : FVec F S128x1024 .f32 := k0_pay110 v3 v4 v5 v6
  let v938 : FVec F S128x1024 .f32 := k0_pay114 v3 v4 v5 v6 v878 v892
  let v950 : FVec F S128x1024 .f32 := k0_pay116 v4 v6 v890
  let v952 : FVec F S128x1024 .f32 := k0_pay117 v3 v4 v5 v6
  k0_pay1 v3 v4 v5 v6 v938 v950 v952

end Cert.Kernel.GaussBody

end
-- ==== Proof.KB.Region0.lean ====
/-
  The first kernel region (the likelihood matrix, eight row blocks of 128 rows) at a parameter `V`, the
  contents of the core's buffers when the region is entered.  Each of the eight points reads a 128-row block of
  `p` and the whole of `q` transposed, and stores the 128 x 1024 block of the matrix whose entries are the
  body's pure function `body0` of those two blocks; the inputs are left in place.
-/
import proofs.«122097_j1417339208257_1_alg».proof.Proof.Gen.Kernel.Launch
import proofs.«122097_j1417339208257_1_alg».proof.Proof.Gen.Kernel.Skeleton
import proofs.«122097_j1417339208257_1_alg».proof.Proof.Gen.Kernel.Points
import proofs.«122097_j1417339208257_1_alg».proof.Proof.KB.GaussBodyDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.GaussBody

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `p` is in its staging buffer at every point, whatever proof data leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The transposed `q`, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a 128 x 128 block and of a 128 x 1024 block. -/
abbrev rP : Rect S128x128 := Rect.unit (s := S128x128) ![0, 0] S128x128.size inb_S128x128_S128x128_0_0
abbrev rQ : Rect S128x1024 := Rect.unit (s := S128x1024) ![0, 0] S128x1024.size inb_S128x1024_S128x1024_0_0

/-- What the body leaves in the result's staging buffer: its one store, of `body0` of the two loaded blocks. -/
def out0_2 (x0 : Vec F S128x128 .f32) (x1 : Vec F S128x1024 .f32) : Vec F S128x1024 .f32 :=
  View.canon [⟨rQ, body0 (View.ld x0 rP) (View.ld x1 rQ)⟩]

/-- The one store covers the buffer. -/
theorem cover0_2 (p0 : Vec F S128x1024 .f32) (y : S128x1024.Idx) :
    ∃ pc ∈ ([⟨rQ, p0⟩] : List (View.Piece (Elt F) S128x1024 .f32)), y ∈ pc.1.set :=
  View.cover_of_tiled [⟨rQ, p0⟩] S128x1024.size (by rfl) y

set_option maxHeartbeats 8000000 in
/-- The body on whole staging buffers, the two inputs at `x0`, `x1` and the result's at anything, runs to its
    return with the inputs as they were and the result's buffer at `out0_2 x0 x1`. -/
theorem sound_kernel0 (c : Dev nD) (E : Set ℕ) (i : grid0.Coords) (arg1 : Memref sig .tc .vmem S128x128 .f32) (harg1 : arg1.IsWhole) (arg2 : Memref sig .tc .vmem S128x1024 .f32) (harg2 : arg2.IsWhole)
    (arg3 : Memref sig .tc .vmem S128x1024 .f32) (harg3 : arg3.IsWhole)
    (x0 : Vec F S128x128 .f32) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gauss_kernel i arg1 harg1 arg2 harg2 arg3 harg3) K := by
  simp only [cc0__gauss_kernel_eq_skeleton]; unfold cc0__gauss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the first pipeline on core `c`: the arrays as the region finds them; after the body at point
    `t` each input's buffer at its block and the result's at `out0_2` of the two input blocks; the invariant the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Kernel1Def.lean ====
/-
  The second kernel region (the chained product and its logarithm, an 8 x 4 grid) — what its body's two stores
  leave: the first product in the scratch buffer, the logarithm of the second in the result's block; and the
  condition under which the first store happens (the point's second coordinate is 0).
-/
import proofs.«122097_j1417339208257_1_alg».proof.Proof.Gen.Kernel.Launch
import proofs.«122097_j1417339208257_1_alg».proof.Proof.Gen.Kernel.Skeleton
import proofs.«122097_j1417339208257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a 512 x 1024 and of a 1024 x 1024 buffer. -/
abbrev rT : Rect S512x1024 := Rect.unit (s := S512x1024) ![0, 0] S512x1024.size inb_S512x1024_S512x1024_0_0
abbrev rG : Rect S1024x1024 := Rect.unit (s := S1024x1024) ![0, 0] S1024x1024.size inb_S1024x1024_S1024x1024_0_0

/-- What the first store leaves in the scratch: the first product, of the loaded blocks. -/
def tmp1 (x0 : Vec F S512x1024 .f32) (x1 : Vec F S1024x1024 .f32) : Vec F S512x1024 .f32 :=
  View.canon [⟨rT, k1_pay1 (View.ld x0 rT) (View.ld x1 rG)⟩]

/-- What the last store leaves in the result's buffer, from the scratch's contents and the block of `k2`. -/
def out1_3 (s : Vec F S512x1024 .f32) (x2 : Vec F S1024x1024 .f32) : Vec F S512x1024 .f32 :=
  View.canon [⟨rT, k1_pay2 (View.ld s rT) (View.ld x2 rG)⟩]

/-- One whole-rectangle store covers a 512 x 1024 buffer. -/
theorem coverT (p0 : Vec F S512x1024 .f32) (y : S512x1024.Idx) :
    ∃ pc ∈ ([⟨rT, p0⟩] : List (View.Piece (Elt F) S512x1024 .f32)), y ∈ pc.1.set :=
  View.cover_of_tiled [⟨rT, p0⟩] S512x1024.size (by rfl) y

/-- The body's branch condition, from the grid coordinates: the second coordinate is 0. -/
abbrev cond1 (i : grid1.Coords) : Prop := (Scalar.cmpi .ne (Scalar.extui (Scalar.cmpi .eq (BitVec.ofNat 32 (i 1).val) 0#32)) 0#32) = 1#1
/-- It holds at the points that start a row of the grid — decided over the grid. -/
theorem hcond1 : ∀ t : Fin cfg1.N, cond1 (grid1.coords t) ↔ t.val % 4 = 0 :=
  (by decide +kernel : ∀ t : Fin grid1.N, cond1 (grid1.coords t) ↔ t.val % 4 = 0)

end Cert.Kernel.Hand

end
-- ==== Proof.KB.Kernel1.lean ====
/-
  The second kernel's body run in each of its two cases.  At a point whose second coordinate is 0 the body
  overwrites its scratch with the first product and stores the logarithm of the second product, taken of the
  scratch's new contents; at any other point it reads the scratch as the earlier point left it.
-/
import proofs.«122097_j1417339208257_1_alg».proof.Proof.Gen.Kernel.Launch
import proofs.«122097_j1417339208257_1_alg».proof.Proof.Gen.Kernel.Skeleton
import proofs.«122097_j1417339208257_1_alg».proof.Proof.Gen.Kernel.Points
import proofs.«122097_j1417339208257_1_alg».proof.Proof.KB.Kernel1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that starts a row: the scratch is overwritten with the first product, the result's buffer gets the
    logarithm of the second. -/
theorem sound_kernel1_first (c : Dev nD) (E : Set ℕ) (i : grid1.Coords) (hc : cond1 i)
    (arg2 : Memref sig .tc .vmem S512x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole)
    (x0 : Vec F S512x1024 .f32) (x1 : Vec F S1024x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 (tmp1 x0 x1) x2) ∗ owns (c : Thread nD τ) arg6 fullShare (tmp1 x0 x1)) -∗ K ⟨⟩))
      ⊢ wp frame (wpE (defs₀ (F := F)) Variants.none c none) E (cc1__chain_kernel i arg2 harg2 arg3 harg3 arg4 harg4 arg5 harg5 arg6 harg6) K := by
  simp only [cc1__chain_kernel_eq_skeleton]; unfold cc1__chain_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    -- the result's one store covers its buffer; the value it stores reads the scratch back after the scratch's own
    -- covering store, which is that store's value at the rectangle's indices
    refine (View.read_writes_eq_canon _ _ _ (coverT _)).trans ?_
    sl_unfold_run_names
    rw [View.readCov_eq_canon']
    rfl
  iexists _; isplitr
  swap; · iexact H6
  ipureintro
  sl_unfold_run_names
  exact View.read_writes_eq_canon _ _ _ (coverT _)

set_option maxHeartbeats 4000000 in
/-- Any other point: the scratch is read and kept, the result's buffer gets the logarithm of the second product. -/
theorem sound_kernel1_later (c : Dev nD) (E : Set ℕ) (i : grid1.Coords) (hc : ¬cond1 i)
    (arg2 : Memref sig .tc .vmem S512x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole)
    (x2 : Vec F S1024x1024 .f32) (s : Vec F S512x1024 .f32) (K : PUnit → sProp 𝕄) :
    iprop(owns (c : Thread nD τ) arg4 fullShare x2
        ∗ (∃ d, owns (c : Thread nD τ) arg5 fullShare d) ∗ owns (c : Thread nD τ) arg6 fullShare s
        ∗ (iprop(owns (c : Thread nD τ) arg4 fullShare x2
            ∗ owns (c : Thread nD τ) arg5 fullShare (out1_3 s x2) ∗ owns (c : Thread nD τ) arg6 fullShare s) -∗ K ⟨⟩))
      ⊢ wp frame (wpE (defs₀ (F := F)) Variants.none c none) E (cc1__chain_kernel i arg2 harg2 arg3 harg3 arg4 harg4 arg5 harg5 arg6 harg6) K := by
  simp only [cc1__chain_kernel_eq_skeleton]; unfold cc1__chain_kernel_skel
  unfold owns
  iintro ⟨⟨%f2, %hf2, H2⟩, ⟨%d5, %f5, -, H5⟩, ⟨%f6, %hf6, H6⟩, Hk⟩
  subst hf2; subst hf6
  sl_exec (disch := first | exact hc)
  sl_step
  iapply Hk
  isplitl [H2]
  · iexists f2; isplitr; · ipureintro; rfl
    iexact H2
  isplitl [H5]
  · iexists _; isplitr
    swap; · iexact H5
    ipureintro
    exact View.read_writes_eq_canon _ _ _ (coverT _)
  iexists f6; isplitr; · ipureintro; rfl
  iexact H6

end Cert.Kernel.Hand

end
-- ==== Proof.KB.Region1.lean ====
/-
  The second kernel region at a parameter `V`, the contents of the core's buffers when the region is entered:
  what its scratch buffer holds after each point (overwritten at the points that start a row of the grid, carried
  at the others), the region's invariant holding it, the proof data and the body obligation at a generic point.
-/
import proofs.«122097_j1417339208257_1_alg».proof.Proof.Gen.Kernel.Launch
import proofs.«122097_j1417339208257_1_alg».proof.Proof.Gen.Kernel.Skeleton
import proofs.«122097_j1417339208257_1_alg».proof.Proof.Gen.Kernel.Points
import proofs.«122097_j1417339208257_1_alg».proof.Proof.KB.Kernel1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The scratch buffer, point by point -/

/-- The kernel's scratch operand: a whole scoped buffer of its own. -/
abbrev scM1 : Memref sig .tc .vmem S512x1024 .f32 := Memref.whole cc1_scratch0

/-- What the scratch holds after the body at position `n`: at a position that starts a row of the grid the first
    product of that point's blocks, elsewhere what the position before left. -/
def scrAt (c : Dev nD) : (n : ℕ) → n < cfg1.N → Vec F S512x1024 .f32
  | 0, hn => tmp1 (iblk1 V c 0 ⟨0, hn⟩) (iblk1 V c 1 ⟨0, hn⟩)
  | n + 1, hn =>
    if (n + 1) % 4 = 0 then tmp1 (iblk1 V c 0 ⟨n + 1, hn⟩) (iblk1 V c 1 ⟨n + 1, hn⟩)
    else scrAt c n (Nat.lt_of_succ_lt hn)

theorem scrAt_first (c : Dev nD) (t : Fin cfg1.N) (h : t.val % 4 = 0) :
    scrAt V c t.val t.isLt = tmp1 (iblk1 V c 0 t) (iblk1 V c 1 t) := by
  obtain ⟨n, hn⟩ := t
  cases n with
  | zero => rfl
  | succ n => exact if_pos h

theorem scrAt_later (c : Dev nD) (t : Fin cfg1.N) (h : ¬t.val % 4 = 0) :
    scrAt V c t.val t.isLt = scrAt V c (t.val - 1) (Nat.lt_of_le_of_lt (Nat.sub_le _ _) t.isLt) := by
  obtain ⟨n, hn⟩ := t
  cases n with
  | zero => exact absurd (Nat.zero_mod 4) h
  | succ n => exact (if_neg h).trans rfl

/-! ## The region's invariant -/

/-- The scoped buffers of the core that are neither a staging buffer of this region nor its scratch, each whole at
    some contents. -/
def keep5 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands the region, with the scratch split out. -/
theorem PhiA1_split (c : Dev nD) :
    (Pipeline.ΦA spec1 c : sProp 𝕄) ⊢ iprop(keep5 c ∗ (∃ d, owns (c : Thread nD τ) scM1 fullShare d) ∗ (∃ r, prngReg c r)) := by
  unfold Pipeline.ΦA keep5; rw [scopedRest1_eq]
  simp only [scM1, owns_whole]
  iintro ⟨⟨Ha, Hb, Hc, Hd, He, Hs⟩, Hg⟩
  isplitl [Ha Hb Hc Hd He]
  · isplitl [Ha]; · iexact Ha
    isplitl [Hb]; · iexact Hb
    isplitl [Hc]; · iexact Hc
    isplitl [Hd]; · iexact Hd
    iexact He
  isplitl [Hs]; · iexact Hs
  iexact Hg

/-- And back. -/
theorem PhiA1_join (c : Dev nD) :
    iprop(keep5 c ∗ (∃ d, owns (c : Thread nD τ) scM1 fullShare d) ∗ (∃ r, prngReg c r)) ⊢ (Pipeline.ΦA spec1 c : sProp 𝕄) := by
  unfold Pipeline.ΦA keep5; rw [scopedRest1_eq]
  simp only [scM1, owns_whole]
  iintro ⟨⟨Ha, Hb, Hc, Hd, He⟩, Hs, Hg⟩
  isplitl [Ha Hb Hc Hd He Hs]
  · isplitl [Ha]; · iexact Ha
    isplitl [Hb]; · iexact Hb
    isplitl [Hc]; · iexact Hc
    isplitl [Hd]; · iexact Hd
    isplitl [He]; · iexact He
    iexact Hs
  iexact Hg

/-- The region's invariant before position `n`: before the first point what the launch hands over (every scoped
    buffer at anything); afterwards the same with the scratch at what the point before left in it. -/
def PhiS1 (c : Dev nD) : (n : ℕ) → n ≤ cfg1.N → sProp 𝕄
  | 0, _ => Pipeline.ΦA spec1 c
  | n + 1, hn => iprop(keep5 c ∗ owns (c : Thread nD τ) scM1 fullShare (scrAt V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(keep5 c ∗ owns (c : Thread nD τ) scM1 fullShare (scrAt V c n hn) ∗ (∃ r, prngReg c r)) := rfl

theorem PhiS1_pos (c : Dev nD) (n : ℕ) (h : n ≤ cfg1.N) (hz : n ≠ 0) :
    PhiS1 V c n h = iprop(keep5 c ∗ owns (c : Thread nD τ) scM1 fullShare (scrAt V c (n - 1) (by omega)) ∗ (∃ r, prngReg c r)) := by
  cases n with
  | zero => exact absurd rfl hz
  | succ n => rfl

/-! ## The region's proof data -/

/-- The proof data of the second pipeline on core `c`: the arrays as the region finds them; after the body at point
    `t` each input's buffer at its block and the result's at the logarithm of the second product, of the scratch's
    contents there and the point's block of `k2`; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scrAt V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (scrAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KB.Region1Body.lean ====
/-
  The second kernel region's body obligation at a generic point, and what its invariant gives back at the end.
  A point that starts a row of the grid takes the scratch at anything (at the very first point, what the launch
  hands over; later, what the row before left) and leaves it at the first product of the point's blocks; any
  other point takes it at what the point before left and leaves it there.
-/
import proofs.«122097_j1417339208257_1_alg».proof.Proof.Gen.Kernel.Launch
import proofs.«122097_j1417339208257_1_alg».proof.Proof.Gen.Kernel.Skeleton
import proofs.«122097_j1417339208257_1_alg».proof.Proof.Gen.Kernel.Points
import proofs.«122097_j1417339208257_1_alg».proof.Proof.KB.Kernel1
import proofs.«122097_j1417339208257_1_alg».proof.Proof.KB.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases h0 : t.val % 4 = 0
  · rw [scrAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨Hk5, HS, Hg⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hk5 HS Hg]
      · isplitl [Hk5]; · iexact Hk5
        isplitl [HS]; · iexact HS
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨Hk5, HS, Hg⟩, Ho, ⟨%d0, H0⟩, ⟨%d1, H1⟩, ⟨%d2, H2⟩, ⟨%d3, H3⟩⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [Hk5 HS Hg]
      · isplitl [Hk5]; · iexact Hk5
        isplitl [HS]; · iexact HS
        iexact Hg
      isplitl [Ho]; · iexact Ho
      isplitl [H0]; · iexact H0
      isplitl [H1]; · iexact H1
      isplitl [H2]; · iexact H2
      iexact H3
  · have hz : t.val ≠ 0 := fun e => h0 (by rw [e])
    rw [scrAt_later V c t h0]
    rw [PhiS1_castSucc V c t, PhiS1_pos V c _ _ hz]
    iintro ⟨⟨Hk5, HS, Hg⟩, Ho, ⟨%d0, H0⟩, ⟨%d1, H1⟩, ⟨%d2, H2⟩, ⟨%d3, H3⟩⟩
    iapply (sound_kernel1_later c Set.univ (grid1.coords t) (fun h => h0 ((hcond1 t).mp h)) _ _ _ _ _ _ _ _ _ _ (iblk1 V c 2 t) (scrAt V c (t.val - 1) (Nat.lt_of_le_of_lt (Nat.sub_le _ _) t.isLt)) _)
    isplitl [H2]; · iexact H2
    isplitl [H3]; · iexists _; iexact H3
    isplitl [HS]; · iexact HS
    iintro ⟨H2, H3, HS⟩
    isplitl [Hk5 HS Hg]
    · isplitl [Hk5]; · iexact Hk5
      isplitl [HS]; · iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives back what the launch handed over: the scratch's contents are forgotten. -/
theorem Phi1_out (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  refine .trans ?_ (PhiA1_join c)
  iintro ⟨Hk5, HS, Hg⟩
  isplitl [Hk5]; · iexact Hk5
  isplitl [HS]; · iexists _; iexact HS
  iexact Hg

end Cert.Kernel.Hand

end
-- ==== Proof.KB.Run.lean ====
/-
  The run of the whole program: one host operation (the transpose of `q`), the first kernel region, the second.
  The contents of the core's unscoped buffers at each boundary are a fold from the launch memory: after the host
  operation; after the first region (its result array at what its eight write-backs leave); after the second
  (its result array at what its thirty-two write-backs leave).  Every weakly fair execution terminates, without a
  fault, with every unscoped buffer at the last boundary's contents — the arguments as launched, the two results
  at what the regions' proof data compute.
-/
import proofs.«122097_j1417339208257_1_alg».proof.Proof.Gen.Kernel.Launch
import proofs.«122097_j1417339208257_1_alg».proof.Proof.Gen.Kernel.Skeleton
import proofs.«122097_j1417339208257_1_alg».proof.Proof.Gen.Kernel.Points
import proofs.«122097_j1417339208257_1_alg».proof.Proof.KB.Region0
import proofs.«122097_j1417339208257_1_alg».proof.Proof.KB.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operation writes the transposed `q` only. -/
theorem hostOps0_keeps (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := hostOps0_keeps m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 2).trans (((dat1 (V2 m ρ) c).arrAt_in 2 rfl _).trans (A_eq1 (V2 m ρ) c 2))
    _ = W1 m ρ c (Proc.devRef .tc main_arg1) := W2_of_ne m ρ c main_arg1 (by decide)
    _ = W0 m ρ c (Proc.devRef .tc main_arg1) := hostOps0_keeps m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := hostOps0_keeps m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := hostOps0_keeps m ρ c main_arg3 (by decide)
    _ = m ((c : Thread nD τ).loc main_arg3) := rfl

/-- The second result is the first region's result array, which the second region only reads. -/
theorem W3_main_v1 (c : Dev nD) : W3 m ρ c (Proc.devRef .tc main_v1) = (dat0 (V1 m ρ) c).arrAt 2 cfg0.N :=
  ((W3_arr m ρ c 1).trans (((dat1 (V2 m ρ) c).arrAt_in 1 rfl _).trans (A_eq1 (V2 m ρ) c 1))).trans (W2_arr m ρ c 2)
/-- The first result is the second region's result array. -/
theorem W3_main_v2 (c : Dev nD) : W3 m ρ c (Proc.devRef .tc main_v2) = (dat1 (V2 m ρ) c).arrAt 3 cfg1.N :=
  W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its
    invariant takes the scoped buffers and the generator register in, carries the scratch, and gives them back with
    the scratch's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := Phi1_out (V2 m ρ) c
    rw [show (pdats m ρ 1 c).Φ (Fin.last _) = (dat1 (V2 m ρ) c).Φ (Fin.last cfg1.N) from rfl]
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

end Cert.Kernel.Hand

end
-- ==== Proof.Frames.lean ====
/-
  The three frame conjuncts.  Each kernel program's run (KI/Run, KB/Run) ends with every unscoped buffer at the
  last boundary's contents, and at an argument those are the launch contents; the reference's frame is its run with
  the results dropped.
-/
import proofs.«122097_j1417339208257_1_alg».proof.Defs
import proofs.«122097_j1417339208257_1_alg».proof.Proof.Gen.Kernel
import proofs.«122097_j1417339208257_1_alg».proof.Proof.Gen.KernelIdeal
import proofs.«122097_j1417339208257_1_alg».proof.Proof.Gen.ReferenceIdeal
import proofs.«122097_j1417339208257_1_alg».proof.Proof.Gen.ReferenceIdeal.Run
import proofs.«122097_j1417339208257_1_alg».proof.Proof.Gen.Pre_finite_inputs
import proofs.«122097_j1417339208257_1_alg».proof.Proof.KI.Run
import proofs.«122097_j1417339208257_1_alg».proof.Proof.KB.Run

noncomputable section

namespace Cert.Proof.Frames

open Idealize.ShloMosaic Idealize.ShloMosaic.TcCoe Idealize.SL.Sem

theorem frame_p : Cert.frame_Kernel := fun m ρ _ =>
  (θ_run Cert.Kernel.defs _ _).mono (fun _ h c =>
    ⟨(h c Cert.Kernel.main_arg0 (by decide)).trans (Cert.Kernel.Hand.W3_main_arg0 m ρ c),
      (h c Cert.Kernel.main_arg1 (by decide)).trans (Cert.Kernel.Hand.W3_main_arg1 m ρ c),
      (h c Cert.Kernel.main_arg2 (by decide)).trans (Cert.Kernel.Hand.W3_main_arg2 m ρ c),
      (h c Cert.Kernel.main_arg3 (by decide)).trans (Cert.Kernel.Hand.W3_main_arg3 m ρ c)⟩)
    (Cert.Kernel.Hand.run (F := Bits) m ρ)

theorem frame_pi : Cert.frame_KernelIdeal := fun m ρ _ =>
  (θ_run Cert.KernelIdeal.defs _ _).mono (fun _ h c =>
    ⟨(h c Cert.KernelIdeal.main_arg0 (by decide)).trans (Cert.KernelIdeal.Hand.W3_main_arg0 m ρ c),
      (h c Cert.KernelIdeal.main_arg1 (by decide)).trans (Cert.KernelIdeal.Hand.W3_main_arg1 m ρ c),
      (h c Cert.KernelIdeal.main_arg2 (by decide)).trans (Cert.KernelIdeal.Hand.W3_main_arg2 m ρ c),
      (h c Cert.KernelIdeal.main_arg3 (by decide)).trans (Cert.KernelIdeal.Hand.W3_main_arg3 m ρ c)⟩)
    (Cert.KernelIdeal.Hand.run (F := Ideal) m ρ)

theorem frame_ri : Cert.frame_ReferenceIdeal := fun m ρ _ =>
  (θ_run Cert.ReferenceIdeal.defs _ _).mono (fun _ h c => (h c).2.2) (Cert.ReferenceIdeal.Value.run (F := Ideal) m ρ)

end Cert.Proof.Frames

end
-- ==== Proof.Spec.lean ====
/-
  The mathematics both programs compute, stated once over plain index functions on the extended reals.

  A row of `p` (and of `q`) holds 64 means followed by 64 variances.  For a row `r` of `p` and a row `c` of `q`
  the entry of the likelihood matrix is
      exp (1/2 · (((0 − Σ_d log (σp_d + σq_d)) − 64·log 2π) − Σ_d (μp_d − μq_d)² / (σp_d + σq_d))),
  the two sums over the 64 features, the two float literals kept as the words both programs print.
  The final result is log ((k1 · G) · k2ᵀ) entry by entry, the product grouped from the left.
-/
import Idealize.ShloMosaic.PureOps.Ideal
import Idealize.ShloMosaic.Lib.ValueIdx

noncomputable section

open scoped BigOperators

namespace Cert.Spec

open Idealize.ShloMosaic Idealize.ShloMosaic.ValueIdx

/-- Column of the `d`-th mean in a row of 128 entries. -/
abbrev lo (d : Fin 64) : Fin 128 := ⟨d.val, by omega⟩
/-- Column of the `d`-th variance in a row of 128 entries. -/
abbrev hi (d : Fin 64) : Fin 128 := ⟨64 + d.val, by omega⟩

/-- One entry of the likelihood matrix from the 64 means and variances of each side. -/
def gaussEntry (mp sp mq sq : Fin 64 → EReal) : EReal :=
  Ideal.exp (Ideal.ofBits .f32 0x3F000000#32 *
    (((0 - ∑ d : Fin 64, Ideal.log (sp d + sq d)) - Ideal.ofBits .f32 0x42EB3F8E#32)
      - ∑ d : Fin 64, Ideal.div ((mp d - mq d) * (mp d - mq d)) (sp d + sq d)))

/-- The likelihood matrix: entry `(r, c)` pairs row `r` of `p` with row `c` of `q`. -/
def gaussMat (p q : (⟨2, ![1024, 128]⟩ : Shape).Idx → EReal) : (⟨2, ![1024, 1024]⟩ : Shape).Idx → EReal :=
  fun j => gaussEntry (fun d => p (ix2 (n0 := 1024) (j 0) (lo d))) (fun d => p (ix2 (n0 := 1024) (j 0) (hi d)))
    (fun d => q (ix2 (n0 := 1024) (j 1) (lo d))) (fun d => q (ix2 (n0 := 1024) (j 1) (hi d)))

/-- The first product of the chain: row `u` of `k1` against column `b` of `g`. -/
def chainTmp (k1 : (⟨2, ![4096, 1024]⟩ : Shape).Idx → EReal) (g : (⟨2, ![1024, 1024]⟩ : Shape).Idx → EReal)
    (u : Fin 4096) (b : Fin 1024) : EReal :=
  ∑ a : Fin 1024, k1 (ix2 u a) * g (ix2 a b)

/-- The final result: log of `(k1 · g) · k2ᵀ`, the product grouped from the left. -/
def chainOut (k1 k2 : (⟨2, ![4096, 1024]⟩ : Shape).Idx → EReal) (g : (⟨2, ![1024, 1024]⟩ : Shape).Idx → EReal) :
    (⟨2, ![4096, 4096]⟩ : Shape).Idx → EReal :=
  fun j => Ideal.log (∑ b : Fin 1024, chainTmp k1 g (j 0) b * k2 (ix2 (n0 := 4096) (j 1) b))

end Cert.Spec

end
-- ==== Proof.GaussBody.lean ====
/-
  The value of the first kernel's body at one entry, on the extended reals.

  At row `r` of the block of `p` and column `c` (a row of `q`), feature `d` contributes the
  logarithm of the summed variances, log (σp_d + σq_d), and the quadratic term
  (μp_d − μq_d)² / (σp_d + σq_d).  The body accumulates both from a zero vector, feature by
  feature from 0 to 63, so each accumulator is a left-nested sum ((0 + t₀) + t₁) + … ; that is
  the sum over `Finset.range`, which `Finset.sum_range_succ` unfolds in exactly this shape.
  No finiteness is needed anywhere: only the shape of the sums is used.

  The body is cut into sixteen consecutive pieces.  After piece `k` the quadratic accumulator
  holds features `0 … 4k−3`, the logarithm accumulator features `0 … 4k−2`, and the quadratic
  term of feature `4k−2` is handed on not yet added.  The closing step adds it, processes
  feature 63 and forms exp (½ · (((0 − Σ log) − 64·log 2π) − Σ quad)).
-/
import proofs.«122097_j1417339208257_1_alg».proof.Proof.Spec
import proofs.«122097_j1417339208257_1_alg».proof.Proof.GaussBodyDef
import Idealize.ShloMosaic.Lib.ValueIdx
import Idealize.ShloMosaic.Lib.Pipeline.Value
import Idealize.ShloMosaic.PureOps.Ideal.Laws

noncomputable section

open scoped BigOperators

namespace Cert.KernelIdeal.GaussBody

open Cert.KernelIdeal Cert.KernelIdeal.Gen Idealize.ShloMosaic Idealize.ShloMosaic.ValueIdx

/-! ## Reading one column of a 128x64 block, or one row of a 64x1024 block, spread over 128x1024 -/

/-- Column `d` of a 128x64 block, repeated along the 1024 columns, read at `(r, c)`: the block at `(r, d)`. -/
theorem colB {α : Type} (v : S128x64.Idx → α) (d : ℕ) (hd : d < 64) (h : S128x64.Slices ![0, d] S128x1)
    (r : Fin 128) (c : Fin 1024) :
    broadcastTo S128x1024 (extractStridedSlice S128x1 ![0, d] v h) broadcasts_S128x1_S128x1024 (ix2 r c)
      = v (ix2 r ⟨d, hd⟩) := by
  refine (broadcastTo_apply _ _ (ix2 r c) (ix2 r 0) ?_).trans ?_
  · intro a
    match a with
    | ⟨0, _⟩ => rfl
    | ⟨1, _⟩ => rfl
  · refine extractStridedSlice_apply _ _ _ (ix2 r 0) (ix2 r ⟨d, hd⟩) ?_
    intro a
    match a with
    | ⟨0, _⟩ => show r.val = 0 + r.val; omega
    | ⟨1, _⟩ => show d = d + 0; omega

/-- Row `d` of a 64x1024 block, repeated along the 128 rows, read at `(r, c)`: the block at `(d, c)`. -/
theorem rowB {α : Type} (v : S64x1024.Idx → α) (d : ℕ) (hd : d < 64) (h : S64x1024.Slices ![d, 0] S1x1024)
    (r : Fin 128) (c : Fin 1024) :
    broadcastTo S128x1024 (extractStridedSlice S1x1024 ![d, 0] v h) broadcasts_S1x1024_S128x1024 (ix2 r c)
      = v (ix2 ⟨d, hd⟩ c) := by
  refine (broadcastTo_apply _ _ (ix2 r c) (ix2 0 c) ?_).trans ?_
  · intro a
    match a with
    | ⟨0, _⟩ => rfl
    | ⟨1, _⟩ => rfl
  · refine extractStridedSlice_apply _ _ _ (ix2 0 c) (ix2 ⟨d, hd⟩ c) ?_
    intro a
    match a with
    | ⟨0, _⟩ => show d = d + 0; omega
    | ⟨1, _⟩ => show c.val = 0 + c.val; omega

/-- The logarithm and the exponential of a vector, read at an index. -/
theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

/-! ## One feature: the two vectors the body forms, and their entries -/

/-- The summed variances of feature `d` as a 128x1024 vector: σp_d down the rows plus σq_d along the columns. -/
def sumV (v4 : FVec Ideal S128x64 .f32) (v6 : FVec Ideal S64x1024 .f32) (d : ℕ)
    (hA : S128x64.Slices ![0, d] S128x1) (hB : S64x1024.Slices ![d, 0] S1x1024) : FVec Ideal S128x1024 .f32 :=
  addf (broadcastTo S128x1024 (extractStridedSlice S128x1 ![0, d] v4 hA) broadcasts_S128x1_S128x1024)
    (broadcastTo S128x1024 (extractStridedSlice S1x1024 ![d, 0] v6 hB) broadcasts_S1x1024_S128x1024)

/-- The quadratic term of feature `d` as a 128x1024 vector: (μp_d − μq_d)² over the summed variances. -/
def quadV (v3 v4 : FVec Ideal S128x64 .f32) (v5 v6 : FVec Ideal S64x1024 .f32) (d : ℕ)
    (hA : S128x64.Slices ![0, d] S128x1) (hB : S64x1024.Slices ![d, 0] S1x1024) : FVec Ideal S128x1024 .f32 :=
  divf
    (mulf
      (subf (broadcastTo S128x1024 (extractStridedSlice S128x1 ![0, d] v3 hA) broadcasts_S128x1_S128x1024)
        (broadcastTo S128x1024 (extractStridedSlice S1x1024 ![d, 0] v5 hB) broadcasts_S1x1024_S128x1024))
      (subf (broadcastTo S128x1024 (extractStridedSlice S128x1 ![0, d] v3 hA) broadcasts_S128x1_S128x1024)
        (broadcastTo S128x1024 (extractStridedSlice S1x1024 ![d, 0] v5 hB) broadcasts_S1x1024_S128x1024)))
    (sumV v4 v6 d hA hB)

section Entry
variable (v3 v4 : FVec Ideal S128x64 .f32) (v5 v6 : FVec Ideal S64x1024 .f32) (r : Fin 128) (c : Fin 1024)

/-- σp_n + σq_n at entry `(r, c)` (zero beyond the 64 features, which no sum below reaches). -/
def sg (n : ℕ) : EReal := if h : n < 64 then v4 (ix2 r ⟨n, h⟩) + v6 (ix2 ⟨n, h⟩ c) else 0

/-- log (σp_n + σq_n) at entry `(r, c)`. -/
def lg (n : ℕ) : EReal := Ideal.log (sg v4 v6 r c n)

/-- (μp_n − μq_n)² / (σp_n + σq_n) at entry `(r, c)`. -/
def qd (n : ℕ) : EReal :=
  if h : n < 64 then
    Ideal.div ((v3 (ix2 r ⟨n, h⟩) - v5 (ix2 ⟨n, h⟩ c)) * (v3 (ix2 r ⟨n, h⟩) - v5 (ix2 ⟨n, h⟩ c))) (sg v4 v6 r c n)
  else 0

theorem sumV_apply (d : ℕ) (hd : d < 64) (hA : S128x64.Slices ![0, d] S128x1) (hB : S64x1024.Slices ![d, 0] S1x1024) :
    sumV v4 v6 d hA hB (ix2 r c) = sg v4 v6 r c d := by
  unfold sumV sg
  rw [dif_pos hd, addf_apply, colB _ d hd, rowB _ d hd]

theorem quadV_apply (d : ℕ) (hd : d < 64) (hA : S128x64.Slices ![0, d] S128x1) (hB : S64x1024.Slices ![d, 0] S1x1024) :
    quadV v3 v4 v5 v6 d hA hB (ix2 r c) = qd v3 v4 v5 v6 r c d := by
  unfold quadV qd
  rw [dif_pos hd, divf_apply, mulf_apply, subf_apply, colB _ d hd, rowB _ d hd, sumV_apply v4 v6 r c d hd]

/-! ## The accumulation steps, at entry `(r, c)` -/

/-- The zero vector both accumulators start from is the empty sum. -/
theorem zero_sum (f : ℕ → EReal) :
    (broadcast S128x1024 (Scalar.ofBits (F := Ideal) .f32 0x00000000#32) : FVec Ideal S128x1024 .f32) (ix2 r c)
      = ∑ n ∈ Finset.range 0, f n := by
  rw [Finset.sum_range_zero]
  exact Ideal.ofBits_zero_f32

/-- Adding the pending quadratic term of feature `m` to the sum of the features before it. -/
theorem addP (a p : FVec Ideal S128x1024 .f32) (m : ℕ)
    (ha : a (ix2 r c) = ∑ n ∈ Finset.range m, qd v3 v4 v5 v6 r c n) (hp : p (ix2 r c) = qd v3 v4 v5 v6 r c m) :
    addf a p (ix2 r c) = ∑ n ∈ Finset.range (m + 1), qd v3 v4 v5 v6 r c n := by
  rw [addf_apply, ha, hp, Finset.sum_range_succ]

/-- Adding the quadratic term of feature `d`, formed on the spot, to the sum of the features before it. -/
theorem addQ (a : FVec Ideal S128x1024 .f32) (d : ℕ) (hd : d < 64)
    (hA : S128x64.Slices ![0, d] S128x1) (hB : S64x1024.Slices ![d, 0] S1x1024)
    (ha : a (ix2 r c) = ∑ n ∈ Finset.range d, qd v3 v4 v5 v6 r c n) :
    addf a (quadV v3 v4 v5 v6 d hA hB) (ix2 r c) = ∑ n ∈ Finset.range (d + 1), qd v3 v4 v5 v6 r c n := by
  rw [addf_apply, ha, quadV_apply v3 v4 v5 v6 r c d hd, Finset.sum_range_succ]

/-- Adding the logarithm of feature `d` to the sum of the features before it. -/
theorem addL (b : FVec Ideal S128x1024 .f32) (d : ℕ) (hd : d < 64)
    (hA : S128x64.Slices ![0, d] S128x1) (hB : S64x1024.Slices ![d, 0] S1x1024)
    (hb : b (ix2 r c) = ∑ n ∈ Finset.range d, lg v4 v6 r c n) :
    addf b (log (sumV v4 v6 d hA hB)) (ix2 r c) = ∑ n ∈ Finset.range (d + 1), lg v4 v6 r c n := by
  rw [addf_apply, hb, log_apply, sumV_apply v4 v6 r c d hd, Finset.sum_range_succ]
  rfl

end Entry

/-! ## The sixteen pieces and the closing step

Each piece's three outputs are, by unfolding, the steps above applied in order; so each lemma below
is the composition of those steps, checked against the piece's own definition. -/

section Parts
variable (v3 v4 : FVec Ideal S128x64 .f32) (v5 v6 : FVec Ideal S64x1024 .f32) (r : Fin 128) (c : Fin 1024)

/-- Piece 2, quadratic accumulator: features 0 … 1 and the pending term of feature 2 come in, features 3, 4, 5 are added. -/
theorem pay16_sum (a p : FVec Ideal S128x1024 .f32)
    (ha : a (ix2 r c) = ∑ n ∈ Finset.range 2, qd v3 v4 v5 v6 r c n) (hp : p (ix2 r c) = qd v3 v4 v5 v6 r c 2) :
    k0_pay16 v3 v4 v5 v6 a p (ix2 r c) = ∑ n ∈ Finset.range 6, qd v3 v4 v5 v6 r c n :=
  addQ v3 v4 v5 v6 r c _ 5 (by omega) _ _ (addQ v3 v4 v5 v6 r c _ 4 (by omega) _ _
    (addQ v3 v4 v5 v6 r c _ 3 (by omega) _ _ (addP v3 v4 v5 v6 r c a p 2 ha hp)))

/-- Piece 2, logarithm accumulator: features 0 … 2 come in, features 3 … 6 are added. -/
theorem pay18_sum (b : FVec Ideal S128x1024 .f32)
    (hb : b (ix2 r c) = ∑ n ∈ Finset.range 3, lg v4 v6 r c n) :
    k0_pay18 v4 v6 b (ix2 r c) = ∑ n ∈ Finset.range 7, lg v4 v6 r c n :=
  addL v4 v6 r c _ 6 (by omega) _ _ (addL v4 v6 r c _ 5 (by omega) _ _
    (addL v4 v6 r c _ 4 (by omega) _ _ (addL v4 v6 r c b 3 (by omega) _ _ hb)))

/-- Piece 2, the quadratic term of feature 6, handed on not yet added. -/
theorem pay19_val : k0_pay19 v3 v4 v5 v6 (ix2 r c) = qd v3 v4 v5 v6 r c 6 :=
  quadV_apply v3 v4 v5 v6 r c 6 (by omega) _ _

/-- Piece 3, quadratic accumulator: features 0 … 5 and the pending term of feature 6 come in, features 7, 8, 9 are added. -/
theorem pay23_sum (a p : FVec Ideal S128x1024 .f32)
    (ha : a (ix2 r c) = ∑ n ∈ Finset.range 6, qd v3 v4 v5 v6 r c n) (hp : p (ix2 r c) = qd v3 v4 v5 v6 r c 6) :
    k0_pay23 v3 v4 v5 v6 a p (ix2 r c) = ∑ n ∈ Finset.range 10, qd v3 v4 v5 v6 r c n :=
  addQ v3 v4 v5 v6 r c _ 9 (by omega) _ _ (addQ v3 v4 v5 v6 r c _ 8 (by omega) _ _
    (addQ v3 v4 v5 v6 r c _ 7 (by omega) _ _ (addP v3 v4 v5 v6 r c a p 6 ha hp)))

/-- Piece 3, logarithm accumulator: features 0 … 6 come in, features 7 … 10 are added. -/
theorem pay25_sum (b : FVec Ideal S128x1024 .f32)
    (hb : b (ix2 r c) = ∑ n ∈ Finset.range 7, lg v4 v6 r c n) :
    k0_pay25 v4 v6 b (ix2 r c) = ∑ n ∈ Finset.range 11, lg v4 v6 r c n :=
  addL v4 v6 r c _ 10 (by omega) _ _ (addL v4 v6 r c _ 9 (by omega) _ _
    (addL v4 v6 r c _ 8 (by omega) _ _ (addL v4 v6 r c b 7 (by omega) _ _ hb)))

/-- Piece 3, the quadratic term of feature 10, handed on not yet added. -/
theorem pay26_val : k0_pay26 v3 v4 v5 v6 (ix2 r c) = qd v3 v4 v5 v6 r c 10 :=
  quadV_apply v3 v4 v5 v6 r c 10 (by omega) _ _

/-- Piece 4, quadratic accumulator: features 0 … 9 and the pending term of feature 10 come in, features 11, 12, 13 are added. -/
theorem pay30_sum (a p : FVec Ideal S128x1024 .f32)
    (ha : a (ix2 r c) = ∑ n ∈ Finset.range 10, qd v3 v4 v5 v6 r c n) (hp : p (ix2 r c) = qd v3 v4 v5 v6 r c 10) :
    k0_pay30 v3 v4 v5 v6 a p (ix2 r c) = ∑ n ∈ Finset.range 14, qd v3 v4 v5 v6 r c n :=
  addQ v3 v4 v5 v6 r c _ 13 (by omega) _ _ (addQ v3 v4 v5 v6 r c _ 12 (by omega) _ _
    (addQ v3 v4 v5 v6 r c _ 11 (by omega) _ _ (addP v3 v4 v5 v6 r c a p 10 ha hp)))

/-- Piece 4, logarithm accumulator: features 0 … 10 come in, features 11 … 14 are added. -/
theorem pay32_sum (b : FVec Ideal S128x1024 .f32)
    (hb : b (ix2 r c) = ∑ n ∈ Finset.range 11, lg v4 v6 r c n) :
    k0_pay32 v4 v6 b (ix2 r c) = ∑ n ∈ Finset.range 15, lg v4 v6 r c n :=
  addL v4 v6 r c _ 14 (by omega) _ _ (addL v4 v6 r c _ 13 (by omega) _ _
    (addL v4 v6 r c _ 12 (by omega) _ _ (addL v4 v6 r c b 11 (by omega) _ _ hb)))

/-- Piece 4, the quadratic term of feature 14, handed on not yet added. -/
theorem pay33_val : k0_pay33 v3 v4 v5 v6 (ix2 r c) = qd v3 v4 v5 v6 r c 14 :=
  quadV_apply v3 v4 v5 v6 r c 14 (by omega) _ _

/-- Piece 5, quadratic accumulator: features 0 … 13 and the pending term of feature 14 come in, features 15, 16, 17 are added. -/
theorem pay37_sum (a p : FVec Ideal S128x1024 .f32)
    (ha : a (ix2 r c) = ∑ n ∈ Finset.range 14, qd v3 v4 v5 v6 r c n) (hp : p (ix2 r c) = qd v3 v4 v5 v6 r c 14) :
    k0_pay37 v3 v4 v5 v6 a p (ix2 r c) = ∑ n ∈ Finset.range 18, qd v3 v4 v5 v6 r c n :=
  addQ v3 v4 v5 v6 r c _ 17 (by omega) _ _ (addQ v3 v4 v5 v6 r c _ 16 (by omega) _ _
    (addQ v3 v4 v5 v6 r c _ 15 (by omega) _ _ (addP v3 v4 v5 v6 r c a p 14 ha hp)))

/-- Piece 5, logarithm accumulator: features 0 … 14 come in, features 15 … 18 are added. -/
theorem pay39_sum (b : FVec Ideal S128x1024 .f32)
    (hb : b (ix2 r c) = ∑ n ∈ Finset.range 15, lg v4 v6 r c n) :
    k0_pay39 v4 v6 b (ix2 r c) = ∑ n ∈ Finset.range 19, lg v4 v6 r c n :=
  addL v4 v6 r c _ 18 (by omega) _ _ (addL v4 v6 r c _ 17 (by omega) _ _
    (addL v4 v6 r c _ 16 (by omega) _ _ (addL v4 v6 r c b 15 (by omega) _ _ hb)))

/-- Piece 5, the quadratic term of feature 18, handed on not yet added. -/
theorem pay40_val : k0_pay40 v3 v4 v5 v6 (ix2 r c) = qd v3 v4 v5 v6 r c 18 :=
  quadV_apply v3 v4 v5 v6 r c 18 (by omega) _ _

/-- Piece 6, quadratic accumulator: features 0 … 17 and the pending term of feature 18 come in, features 19, 20, 21 are added. -/
theorem pay44_sum (a p : FVec Ideal S128x1024 .f32)
    (ha : a (ix2 r c) = ∑ n ∈ Finset.range 18, qd v3 v4 v5 v6 r c n) (hp : p (ix2 r c) = qd v3 v4 v5 v6 r c 18) :
    k0_pay44 v3 v4 v5 v6 a p (ix2 r c) = ∑ n ∈ Finset.range 22, qd v3 v4 v5 v6 r c n :=
  addQ v3 v4 v5 v6 r c _ 21 (by omega) _ _ (addQ v3 v4 v5 v6 r c _ 20 (by omega) _ _
    (addQ v3 v4 v5 v6 r c _ 19 (by omega) _ _ (addP v3 v4 v5 v6 r c a p 18 ha hp)))

/-- Piece 6, logarithm accumulator: features 0 … 18 come in, features 19 … 22 are added. -/
theorem pay46_sum (b : FVec Ideal S128x1024 .f32)
    (hb : b (ix2 r c) = ∑ n ∈ Finset.range 19, lg v4 v6 r c n) :
    k0_pay46 v4 v6 b (ix2 r c) = ∑ n ∈ Finset.range 23, lg v4 v6 r c n :=
  addL v4 v6 r c _ 22 (by omega) _ _ (addL v4 v6 r c _ 21 (by omega) _ _
    (addL v4 v6 r c _ 20 (by omega) _ _ (addL v4 v6 r c b 19 (by omega) _ _ hb)))

/-- Piece 6, the quadratic term of feature 22, handed on not yet added. -/
theorem pay47_val : k0_pay47 v3 v4 v5 v6 (ix2 r c) = qd v3 v4 v5 v6 r c 22 :=
  quadV_apply v3 v4 v5 v6 r c 22 (by omega) _ _

/-- Piece 7, quadratic accumulator: features 0 … 21 and the pending term of feature 22 come in, features 23, 24, 25 are added. -/
theorem pay51_sum (a p : FVec Ideal S128x1024 .f32)
    (ha : a (ix2 r c) = ∑ n ∈ Finset.range 22, qd v3 v4 v5 v6 r c n) (hp : p (ix2 r c) = qd v3 v4 v5 v6 r c 22) :
    k0_pay51 v3 v4 v5 v6 a p (ix2 r c) = ∑ n ∈ Finset.range 26, qd v3 v4 v5 v6 r c n :=
  addQ v3 v4 v5 v6 r c _ 25 (by omega) _ _ (addQ v3 v4 v5 v6 r c _ 24 (by omega) _ _
    (addQ v3 v4 v5 v6 r c _ 23 (by omega) _ _ (addP v3 v4 v5 v6 r c a p 22 ha hp)))

/-- Piece 7, logarithm accumulator: features 0 … 22 come in, features 23 … 26 are added. -/
theorem pay53_sum (b : FVec Ideal S128x1024 .f32)
    (hb : b (ix2 r c) = ∑ n ∈ Finset.range 23, lg v4 v6 r c n) :
    k0_pay53 v4 v6 b (ix2 r c) = ∑ n ∈ Finset.range 27, lg v4 v6 r c n :=
  addL v4 v6 r c _ 26 (by omega) _ _ (addL v4 v6 r c _ 25 (by omega) _ _
    (addL v4 v6 r c _ 24 (by omega) _ _ (addL v4 v6 r c b 23 (by omega) _ _ hb)))

/-- Piece 7, the quadratic term of feature 26, handed on not yet added. -/
theorem pay54_val : k0_pay54 v3 v4 v5 v6 (ix2 r c) = qd v3 v4 v5 v6 r c 26 :=
  quadV_apply v3 v4 v5 v6 r c 26 (by omega) _ _

/-- Piece 8, quadratic accumulator: features 0 … 25 and the pending term of feature 26 come in, features 27, 28, 29 are added. -/
theorem pay58_sum (a p : FVec Ideal S128x1024 .f32)
    (ha : a (ix2 r c) = ∑ n ∈ Finset.range 26, qd v3 v4 v5 v6 r c n) (hp : p (ix2 r c) = qd v3 v4 v5 v6 r c 26) :
    k0_pay58 v3 v4 v5 v6 a p (ix2 r c) = ∑ n ∈ Finset.range 30, qd v3 v4 v5 v6 r c n :=
  addQ v3 v4 v5 v6 r c _ 29 (by omega) _ _ (addQ v3 v4 v5 v6 r c _ 28 (by omega) _ _
    (addQ v3 v4 v5 v6 r c _ 27 (by omega) _ _ (addP v3 v4 v5 v6 r c a p 26 ha hp)))

/-- Piece 8, logarithm accumulator: features 0 … 26 come in, features 27 … 30 are added. -/
theorem pay60_sum (b : FVec Ideal S128x1024 .f32)
    (hb : b (ix2 r c) = ∑ n ∈ Finset.range 27, lg v4 v6 r c n) :
    k0_pay60 v4 v6 b (ix2 r c) = ∑ n ∈ Finset.range 31, lg v4 v6 r c n :=
  addL v4 v6 r c _ 30 (by omega) _ _ (addL v4 v6 r c _ 29 (by omega) _ _
    (addL v4 v6 r c _ 28 (by omega) _ _ (addL v4 v6 r c b 27 (by omega) _ _ hb)))

/-- Piece 8, the quadratic term of feature 30, handed on not yet added. -/
theorem pay61_val : k0_pay61 v3 v4 v5 v6 (ix2 r c) = qd v3 v4 v5 v6 r c 30 :=
  quadV_apply v3 v4 v5 v6 r c 30 (by omega) _ _

/-- Piece 9, quadratic accumulator: features 0 … 29 and the pending term of feature 30 come in, features 31, 32, 33 are added. -/
theorem pay65_sum (a p : FVec Ideal S128x1024 .f32)
    (ha : a (ix2 r c) = ∑ n ∈ Finset.range 30, qd v3 v4 v5 v6 r c n) (hp : p (ix2 r c) = qd v3 v4 v5 v6 r c 30) :
    k0_pay65 v3 v4 v5 v6 a p (ix2 r c) = ∑ n ∈ Finset.range 34, qd v3 v4 v5 v6 r c n :=
  addQ v3 v4 v5 v6 r c _ 33 (by omega) _ _ (addQ v3 v4 v5 v6 r c _ 32 (by omega) _ _
    (addQ v3 v4 v5 v6 r c _ 31 (by omega) _ _ (addP v3 v4 v5 v6 r c a p 30 ha hp)))

/-- Piece 9, logarithm accumulator: features 0 … 30 come in, features 31 … 34 are added. -/
theorem pay67_sum (b : FVec Ideal S128x1024 .f32)
    (hb : b (ix2 r c) = ∑ n ∈ Finset.range 31, lg v4 v6 r c n) :
    k0_pay67 v4 v6 b (ix2 r c) = ∑ n ∈ Finset.range 35, lg v4 v6 r c n :=
  addL v4 v6 r c _ 34 (by omega) _ _ (addL v4 v6 r c _ 33 (by omega) _ _
    (addL v4 v6 r c _ 32 (by omega) _ _ (addL v4 v6 r c b 31 (by omega) _ _ hb)))

/-- Piece 9, the quadratic term of feature 34, handed on not yet added. -/
theorem pay68_val : k0_pay68 v3 v4 v5 v6 (ix2 r c) = qd v3 v4 v5 v6 r c 34 :=
  quadV_apply v3 v4 v5 v6 r c 34 (by omega) _ _

/-- Piece 10, quadratic accumulator: features 0 … 33 and the pending term of feature 34 come in, features 35, 36, 37 are added. -/
theorem pay72_sum (a p : FVec Ideal S128x1024 .f32)
    (ha : a (ix2 r c) = ∑ n ∈ Finset.range 34, qd v3 v4 v5 v6 r c n) (hp : p (ix2 r c) = qd v3 v4 v5 v6 r c 34) :
    k0_pay72 v3 v4 v5 v6 a p (ix2 r c) = ∑ n ∈ Finset.range 38, qd v3 v4 v5 v6 r c n :=
  addQ v3 v4 v5 v6 r c _ 37 (by omega) _ _ (addQ v3 v4 v5 v6 r c _ 36 (by omega) _ _
    (addQ v3 v4 v5 v6 r c _ 35 (by omega) _ _ (addP v3 v4 v5 v6 r c a p 34 ha hp)))

/-- Piece 10, logarithm accumulator: features 0 … 34 come in, features 35 … 38 are added. -/
theorem pay74_sum (b : FVec Ideal S128x1024 .f32)
    (hb : b (ix2 r c) = ∑ n ∈ Finset.range 35, lg v4 v6 r c n) :
    k0_pay74 v4 v6 b (ix2 r c) = ∑ n ∈ Finset.range 39, lg v4 v6 r c n :=
  addL v4 v6 r c _ 38 (by omega) _ _ (addL v4 v6 r c _ 37 (by omega) _ _
    (addL v4 v6 r c _ 36 (by omega) _ _ (addL v4 v6 r c b 35 (by omega) _ _ hb)))

/-- Piece 10, the quadratic term of feature 38, handed on not yet added. -/
theorem pay75_val : k0_pay75 v3 v4 v5 v6 (ix2 r c) = qd v3 v4 v5 v6 r c 38 :=
  quadV_apply v3 v4 v5 v6 r c 38 (by omega) _ _

/-- Piece 11, quadratic accumulator: features 0 … 37 and the pending term of feature 38 come in, features 39, 40, 41 are added. -/
theorem pay79_sum (a p : FVec Ideal S128x1024 .f32)
    (ha : a (ix2 r c) = ∑ n ∈ Finset.range 38, qd v3 v4 v5 v6 r c n) (hp : p (ix2 r c) = qd v3 v4 v5 v6 r c 38) :
    k0_pay79 v3 v4 v5 v6 a p (ix2 r c) = ∑ n ∈ Finset.range 42, qd v3 v4 v5 v6 r c n :=
  addQ v3 v4 v5 v6 r c _ 41 (by omega) _ _ (addQ v3 v4 v5 v6 r c _ 40 (by omega) _ _
    (addQ v3 v4 v5 v6 r c _ 39 (by omega) _ _ (addP v3 v4 v5 v6 r c a p 38 ha hp)))

/-- Piece 11, logarithm accumulator: features 0 … 38 come in, features 39 … 42 are added. -/
theorem pay81_sum (b : FVec Ideal S128x1024 .f32)
    (hb : b (ix2 r c) = ∑ n ∈ Finset.range 39, lg v4 v6 r c n) :
    k0_pay81 v4 v6 b (ix2 r c) = ∑ n ∈ Finset.range 43, lg v4 v6 r c n :=
  addL v4 v6 r c _ 42 (by omega) _ _ (addL v4 v6 r c _ 41 (by omega) _ _
    (addL v4 v6 r c _ 40 (by omega) _ _ (addL v4 v6 r c b 39 (by omega) _ _ hb)))

/-- Piece 11, the quadratic term of feature 42, handed on not yet added. -/
theorem pay82_val : k0_pay82 v3 v4 v5 v6 (ix2 r c) = qd v3 v4 v5 v6 r c 42 :=
  quadV_apply v3 v4 v5 v6 r c 42 (by omega) _ _

/-- Piece 12, quadratic accumulator: features 0 … 41 and the pending term of feature 42 come in, features 43, 44, 45 are added. -/
theorem pay86_sum (a p : FVec Ideal S128x1024 .f32)
    (ha : a (ix2 r c) = ∑ n ∈ Finset.range 42, qd v3 v4 v5 v6 r c n) (hp : p (ix2 r c) = qd v3 v4 v5 v6 r c 42) :
    k0_pay86 v3 v4 v5 v6 a p (ix2 r c) = ∑ n ∈ Finset.range 46, qd v3 v4 v5 v6 r c n :=
  addQ v3 v4 v5 v6 r c _ 45 (by omega) _ _ (addQ v3 v4 v5 v6 r c _ 44 (by omega) _ _
    (addQ v3 v4 v5 v6 r c _ 43 (by omega) _ _ (addP v3 v4 v5 v6 r c a p 42 ha hp)))

/-- Piece 12, logarithm accumulator: features 0 … 42 come in, features 43 … 46 are added. -/
theorem pay88_sum (b : FVec Ideal S128x1024 .f32)
    (hb : b (ix2 r c) = ∑ n ∈ Finset.range 43, lg v4 v6 r c n) :
    k0_pay88 v4 v6 b (ix2 r c) = ∑ n ∈ Finset.range 47, lg v4 v6 r c n :=
  addL v4 v6 r c _ 46 (by omega) _ _ (addL v4 v6 r c _ 45 (by omega) _ _
    (addL v4 v6 r c _ 44 (by omega) _ _ (addL v4 v6 r c b 43 (by omega) _ _ hb)))

/-- Piece 12, the quadratic term of feature 46, handed on not yet added. -/
theorem pay89_val : k0_pay89 v3 v4 v5 v6 (ix2 r c) = qd v3 v4 v5 v6 r c 46 :=
  quadV_apply v3 v4 v5 v6 r c 46 (by omega) _ _

/-- Piece 13, quadratic accumulator: features 0 … 45 and the pending term of feature 46 come in, features 47, 48, 49 are added. -/
theorem pay93_sum (a p : FVec Ideal S128x1024 .f32)
    (ha : a (ix2 r c) = ∑ n ∈ Finset.range 46, qd v3 v4 v5 v6 r c n) (hp : p (ix2 r c) = qd v3 v4 v5 v6 r c 46) :
    k0_pay93 v3 v4 v5 v6 a p (ix2 r c) = ∑ n ∈ Finset.range 50, qd v3 v4 v5 v6 r c n :=
  addQ v3 v4 v5 v6 r c _ 49 (by omega) _ _ (addQ v3 v4 v5 v6 r c _ 48 (by omega) _ _
    (addQ v3 v4 v5 v6 r c _ 47 (by omega) _ _ (addP v3 v4 v5 v6 r c a p 46 ha hp)))

/-- Piece 13, logarithm accumulator: features 0 … 46 come in, features 47 … 50 are added. -/
theorem pay95_sum (b : FVec Ideal S128x1024 .f32)
    (hb : b (ix2 r c) = ∑ n ∈ Finset.range 47, lg v4 v6 r c n) :
    k0_pay95 v4 v6 b (ix2 r c) = ∑ n ∈ Finset.range 51, lg v4 v6 r c n :=
  addL v4 v6 r c _ 50 (by omega) _ _ (addL v4 v6 r c _ 49 (by omega) _ _
    (addL v4 v6 r c _ 48 (by omega) _ _ (addL v4 v6 r c b 47 (by omega) _ _ hb)))

/-- Piece 13, the quadratic term of feature 50, handed on not yet added. -/
theorem pay96_val : k0_pay96 v3 v4 v5 v6 (ix2 r c) = qd v3 v4 v5 v6 r c 50 :=
  quadV_apply v3 v4 v5 v6 r c 50 (by omega) _ _

/-- Piece 14, quadratic accumulator: features 0 … 49 and the pending term of feature 50 come in, features 51, 52, 53 are added. -/
theorem pay100_sum (a p : FVec Ideal S128x1024 .f32)
    (ha : a (ix2 r c) = ∑ n ∈ Finset.range 50, qd v3 v4 v5 v6 r c n) (hp : p (ix2 r c) = qd v3 v4 v5 v6 r c 50) :
    k0_pay100 v3 v4 v5 v6 a p (ix2 r c) = ∑ n ∈ Finset.range 54, qd v3 v4 v5 v6 r c n :=
  addQ v3 v4 v5 v6 r c _ 53 (by omega) _ _ (addQ v3 v4 v5 v6 r c _ 52 (by omega) _ _
    (addQ v3 v4 v5 v6 r c _ 51 (by omega) _ _ (addP v3 v4 v5 v6 r c a p 50 ha hp)))

/-- Piece 14, logarithm accumulator: features 0 … 50 come in, features 51 … 54 are added. -/
theorem pay102_sum (b : FVec Ideal S128x1024 .f32)
    (hb : b (ix2 r c) = ∑ n ∈ Finset.range 51, lg v4 v6 r c n) :
    k0_pay102 v4 v6 b (ix2 r c) = ∑ n ∈ Finset.range 55, lg v4 v6 r c n :=
  addL v4 v6 r c _ 54 (by omega) _ _ (addL v4 v6 r c _ 53 (by omega) _ _
    (addL v4 v6 r c _ 52 (by omega) _ _ (addL v4 v6 r c b 51 (by omega) _ _ hb)))

/-- Piece 14, the quadratic term of feature 54, handed on not yet added. -/
theorem pay103_val : k0_pay103 v3 v4 v5 v6 (ix2 r c) = qd v3 v4 v5 v6 r c 54 :=
  quadV_apply v3 v4 v5 v6 r c 54 (by omega) _ _

/-- Piece 15, quadratic accumulator: features 0 … 53 and the pending term of feature 54 come in, features 55, 56, 57 are added. -/
theorem pay107_sum (a p : FVec Ideal S128x1024 .f32)
    (ha : a (ix2 r c) = ∑ n ∈ Finset.range 54, qd v3 v4 v5 v6 r c n) (hp : p (ix2 r c) = qd v3 v4 v5 v6 r c 54) :
    k0_pay107 v3 v4 v5 v6 a p (ix2 r c) = ∑ n ∈ Finset.range 58, qd v3 v4 v5 v6 r c n :=
  addQ v3 v4 v5 v6 r c _ 57 (by omega) _ _ (addQ v3 v4 v5 v6 r c _ 56 (by omega) _ _
    (addQ v3 v4 v5 v6 r c _ 55 (by omega) _ _ (addP v3 v4 v5 v6 r c a p 54 ha hp)))

/-- Piece 15, logarithm accumulator: features 0 … 54 come in, features 55 … 58 are added. -/
theorem pay109_sum (b : FVec Ideal S128x1024 .f32)
    (hb : b (ix2 r c) = ∑ n ∈ Finset.range 55, lg v4 v6 r c n) :
    k0_pay109 v4 v6 b (ix2 r c) = ∑ n ∈ Finset.range 59, lg v4 v6 r c n :=
  addL v4 v6 r c _ 58 (by omega) _ _ (addL v4 v6 r c _ 57 (by omega) _ _
    (addL v4 v6 r c _ 56 (by omega) _ _ (addL v4 v6 r c b 55 (by omega) _ _ hb)))

/-- Piece 15, the quadratic term of feature 58, handed on not yet added. -/
theorem pay110_val : k0_pay110 v3 v4 v5 v6 (ix2 r c) = qd v3 v4 v5 v6 r c 58 :=
  quadV_apply v3 v4 v5 v6 r c 58 (by omega) _ _

/-- Piece 16, quadratic accumulator: features 0 … 57 and the pending term of feature 58 come in, features 59, 60, 61 are added. -/
theorem pay114_sum (a p : FVec Ideal S128x1024 .f32)
    (ha : a (ix2 r c) = ∑ n ∈ Finset.range 58, qd v3 v4 v5 v6 r c n) (hp : p (ix2 r c) = qd v3 v4 v5 v6 r c 58) :
    k0_pay114 v3 v4 v5 v6 a p (ix2 r c) = ∑ n ∈ Finset.range 62, qd v3 v4 v5 v6 r c n :=
  addQ v3 v4 v5 v6 r c _ 61 (by omega) _ _ (addQ v3 v4 v5 v6 r c _ 60 (by omega) _ _
    (addQ v3 v4 v5 v6 r c _ 59 (by omega) _ _ (addP v3 v4 v5 v6 r c a p 58 ha hp)))

/-- Piece 16, logarithm accumulator: features 0 … 58 come in, features 59 … 62 are added. -/
theorem pay116_sum (b : FVec Ideal S128x1024 .f32)
    (hb : b (ix2 r c) = ∑ n ∈ Finset.range 59, lg v4 v6 r c n) :
    k0_pay116 v4 v6 b (ix2 r c) = ∑ n ∈ Finset.range 63, lg v4 v6 r c n :=
  addL v4 v6 r c _ 62 (by omega) _ _ (addL v4 v6 r c _ 61 (by omega) _ _
    (addL v4 v6 r c _ 60 (by omega) _ _ (addL v4 v6 r c b 59 (by omega) _ _ hb)))

/-- Piece 16, the quadratic term of feature 62, handed on not yet added. -/
theorem pay117_val : k0_pay117 v3 v4 v5 v6 (ix2 r c) = qd v3 v4 v5 v6 r c 62 :=
  quadV_apply v3 v4 v5 v6 r c 62 (by omega) _ _

/-- The closing step: the pending term of feature 62 and feature 63 complete both sums; then
    exp (½ · (((0 − Σ log) − 64·log 2π) − Σ quad)), the two constants kept as the printed words. -/
theorem pay1_val (a b p : FVec Ideal S128x1024 .f32)
    (ha : a (ix2 r c) = ∑ n ∈ Finset.range 62, qd v3 v4 v5 v6 r c n)
    (hb : b (ix2 r c) = ∑ n ∈ Finset.range 63, lg v4 v6 r c n)
    (hp : p (ix2 r c) = qd v3 v4 v5 v6 r c 62) :
    k0_pay1 v3 v4 v5 v6 a b p (ix2 r c)
      = Ideal.exp (Ideal.ofBits .f32 0x3F000000#32 *
          (((0 - ∑ n ∈ Finset.range 64, lg v4 v6 r c n) - Ideal.ofBits .f32 0x42EB3F8E#32)
            - ∑ n ∈ Finset.range 64, qd v3 v4 v5 v6 r c n)) := by
  have hL := addL v4 v6 r c b 63 (by omega) slices_S128x64_o0_63_S128x1 slices_S64x1024_o63_0_S1x1024 hb
  have hQ := addQ v3 v4 v5 v6 r c _ 63 (by omega) slices_S128x64_o0_63_S128x1 slices_S64x1024_o63_0_S1x1024
    (addP v3 v4 v5 v6 r c a p 62 ha hp)
  change Ideal.exp (Ideal.ofBits .f32 0x3F000000#32 *
      (((Ideal.ofBits .f32 0x00000000#32
          - addf b (log (sumV v4 v6 63 slices_S128x64_o0_63_S128x1 slices_S64x1024_o63_0_S1x1024)) (ix2 r c))
        - Ideal.ofBits .f32 0x42EB3F8E#32)
      - addf (addf a p) (quadV v3 v4 v5 v6 63 slices_S128x64_o0_63_S128x1 slices_S64x1024_o63_0_S1x1024) (ix2 r c))) = _
  rw [hL, hQ, Ideal.ofBits_zero_f32]

end Parts

/-! ## The loaded blocks: the four 64-wide halves, and the first piece -/

section Inputs
variable (v0 : Vec Ideal S128x128 .f32) (v1 : Vec Ideal S128x1024 .f32) (r : Fin 128) (c : Fin 1024)

/-- The means of the `p` rows are columns 0 … 63 of the loaded block. -/
theorem pay3_apply (d : Fin 64) : k0_pay3 v0 (ix2 r d) = v0 (ix2 r (Cert.Spec.lo d)) := by
  unfold k0_pay3
  refine extractStridedSlice_apply _ _ _ (ix2 r d) (ix2 r (Cert.Spec.lo d)) ?_
  intro a
  match a with
  | ⟨0, _⟩ => show r.val = 0 + r.val; omega
  | ⟨1, _⟩ => show d.val = 0 + d.val; omega

/-- The variances of the `p` rows are columns 64 … 127 of the loaded block. -/
theorem pay4_apply (d : Fin 64) : k0_pay4 v0 (ix2 r d) = v0 (ix2 r (Cert.Spec.hi d)) := by
  unfold k0_pay4
  refine extractStridedSlice_apply _ _ _ (ix2 r d) (ix2 r (Cert.Spec.hi d)) ?_
  intro a
  match a with
  | ⟨0, _⟩ => show r.val = 0 + r.val; omega
  | ⟨1, _⟩ => show 64 + d.val = 64 + d.val; rfl

/-- The means of the `q` rows are rows 0 … 63 of the loaded transpose. -/
theorem pay5_apply (d : Fin 64) : k0_pay5 v1 (ix2 d c) = v1 (ix2 (Cert.Spec.lo d) c) := by
  unfold k0_pay5 k0_pay2
  rw [shapeCast_self]
  refine extractStridedSlice_apply _ _ _ (ix2 d c) (ix2 (Cert.Spec.lo d) c) ?_
  intro a
  match a with
  | ⟨0, _⟩ => show d.val = 0 + d.val; omega
  | ⟨1, _⟩ => show c.val = 0 + c.val; omega

/-- The variances of the `q` rows are rows 64 … 127 of the loaded transpose. -/
theorem pay6_apply (d : Fin 64) : k0_pay6 v1 (ix2 d c) = v1 (ix2 (Cert.Spec.hi d) c) := by
  unfold k0_pay6 k0_pay2
  rw [shapeCast_self]
  refine extractStridedSlice_apply _ _ _ (ix2 d c) (ix2 (Cert.Spec.hi d) c) ?_
  intro a
  match a with
  | ⟨0, _⟩ => show 64 + d.val = 64 + d.val; rfl
  | ⟨1, _⟩ => show c.val = 0 + c.val; omega

/-- The summed variances of feature `d`, from the loaded blocks. -/
theorem sg_val (d : Fin 64) :
    sg (k0_pay4 v0) (k0_pay6 v1) r c d.val = v0 (ix2 r (Cert.Spec.hi d)) + v1 (ix2 (Cert.Spec.hi d) c) := by
  unfold sg
  rw [dif_pos d.isLt]
  exact congrArg₂ (· + ·) (pay4_apply v0 r d) (pay6_apply v1 c d)

/-- The logarithm term of feature `d`, from the loaded blocks. -/
theorem lg_val (d : Fin 64) :
    lg (k0_pay4 v0) (k0_pay6 v1) r c d.val
      = Ideal.log (v0 (ix2 r (Cert.Spec.hi d)) + v1 (ix2 (Cert.Spec.hi d) c)) := by
  unfold lg
  rw [sg_val]

/-- The quadratic term of feature `d`, from the loaded blocks. -/
theorem qd_val (d : Fin 64) :
    qd (k0_pay3 v0) (k0_pay4 v0) (k0_pay5 v1) (k0_pay6 v1) r c d.val
      = Ideal.div ((v0 (ix2 r (Cert.Spec.lo d)) - v1 (ix2 (Cert.Spec.lo d) c))
          * (v0 (ix2 r (Cert.Spec.lo d)) - v1 (ix2 (Cert.Spec.lo d) c)))
        (v0 (ix2 r (Cert.Spec.hi d)) + v1 (ix2 (Cert.Spec.hi d) c)) := by
  unfold qd
  rw [dif_pos d.isLt, sg_val]
  have e : (k0_pay3 v0 (ix2 r ⟨d.val, d.isLt⟩) - k0_pay5 v1 (ix2 ⟨d.val, d.isLt⟩ c))
      = v0 (ix2 r (Cert.Spec.lo d)) - v1 (ix2 (Cert.Spec.lo d) c) :=
    congrArg₂ (· - ·) (pay3_apply v0 r d) (pay5_apply v1 c d)
  rw [e]

/-- Piece 1, quadratic accumulator: from the zero vector, features 0 and 1. -/
theorem pay9_sum :
    k0_pay9 v0 v1 (ix2 r c) = ∑ n ∈ Finset.range 2, qd (k0_pay3 v0) (k0_pay4 v0) (k0_pay5 v1) (k0_pay6 v1) r c n :=
  addQ (k0_pay3 v0) (k0_pay4 v0) (k0_pay5 v1) (k0_pay6 v1) r c _ 1 (by omega) _ _
    (addQ (k0_pay3 v0) (k0_pay4 v0) (k0_pay5 v1) (k0_pay6 v1) r c _ 0 (by omega) _ _ (zero_sum r c _))

/-- Piece 1, logarithm accumulator: from the zero vector, features 0, 1 and 2. -/
theorem pay11_sum :
    k0_pay11 v0 v1 (ix2 r c) = ∑ n ∈ Finset.range 3, lg (k0_pay4 v0) (k0_pay6 v1) r c n :=
  addL (k0_pay4 v0) (k0_pay6 v1) r c _ 2 (by omega) _ _ (addL (k0_pay4 v0) (k0_pay6 v1) r c _ 1 (by omega) _ _
    (addL (k0_pay4 v0) (k0_pay6 v1) r c _ 0 (by omega) _ _ (zero_sum r c _)))

/-- Piece 1, the quadratic term of feature 2, handed on not yet added. -/
theorem pay12_val :
    k0_pay12 v0 v1 (ix2 r c) = qd (k0_pay3 v0) (k0_pay4 v0) (k0_pay5 v1) (k0_pay6 v1) r c 2 :=
  quadV_apply (k0_pay3 v0) (k0_pay4 v0) (k0_pay5 v1) (k0_pay6 v1) r c 2 (by omega) _ _

end Inputs

/-! ## The specification's entry as sums over `Finset.range`, and the body's value -/

/-- The specification's entry, its two sums over the 64 features re-indexed by the naturals below 64. -/
theorem gaussEntry_eq_range (mp sp mq sq : Fin 64 → EReal) (L Q : ℕ → EReal)
    (hL : ∀ d : Fin 64, L d.val = Ideal.log (sp d + sq d))
    (hQ : ∀ d : Fin 64, Q d.val = Ideal.div ((mp d - mq d) * (mp d - mq d)) (sp d + sq d)) :
    Cert.Spec.gaussEntry mp sp mq sq
      = Ideal.exp (Ideal.ofBits .f32 0x3F000000#32 *
          (((0 - ∑ n ∈ Finset.range 64, L n) - Ideal.ofBits .f32 0x42EB3F8E#32) - ∑ n ∈ Finset.range 64, Q n)) := by
  unfold Cert.Spec.gaussEntry
  rw [← Fin.sum_univ_eq_sum_range L 64, ← Fin.sum_univ_eq_sum_range Q 64,
    Finset.sum_congr rfl (fun d _ => hL d), Finset.sum_congr rfl (fun d _ => hQ d)]

/-- The value the first kernel stores, entry by entry: the specification's likelihood entry of row `r` of the
    block of `p` against row `c` of `q`. -/
theorem body0_apply (v0 : Vec Ideal S128x128 .f32) (v1 : Vec Ideal S128x1024 .f32) (r : Fin 128) (c : Fin 1024) :
    body0 (F := Ideal) v0 v1 (ValueIdx.ix2 r c)
      = Cert.Spec.gaussEntry (fun d => v0 (ValueIdx.ix2 r (Cert.Spec.lo d))) (fun d => v0 (ValueIdx.ix2 r (Cert.Spec.hi d)))
          (fun d => v1 (ValueIdx.ix2 (Cert.Spec.lo d) c)) (fun d => v1 (ValueIdx.ix2 (Cert.Spec.hi d) c)) := by
  have h38 := pay9_sum v0 v1 r c
  have h50 := pay11_sum v0 v1 r c
  have h52 := pay12_val v0 v1 r c
  have h98 := pay16_sum _ _ _ _ r c _ _ h38 h52
  have h110 := pay18_sum _ _ r c _ h50
  have h112 := pay19_val (k0_pay3 v0) (k0_pay4 v0) (k0_pay5 v1) (k0_pay6 v1) r c
  have h158 := pay23_sum _ _ _ _ r c _ _ h98 h112
  have h170 := pay25_sum _ _ r c _ h110
  have h172 := pay26_val (k0_pay3 v0) (k0_pay4 v0) (k0_pay5 v1) (k0_pay6 v1) r c
  have h218 := pay30_sum _ _ _ _ r c _ _ h158 h172
  have h230 := pay32_sum _ _ r c _ h170
  have h232 := pay33_val (k0_pay3 v0) (k0_pay4 v0) (k0_pay5 v1) (k0_pay6 v1) r c
  have h278 := pay37_sum _ _ _ _ r c _ _ h218 h232
  have h290 := pay39_sum _ _ r c _ h230
  have h292 := pay40_val (k0_pay3 v0) (k0_pay4 v0) (k0_pay5 v1) (k0_pay6 v1) r c
  have h338 := pay44_sum _ _ _ _ r c _ _ h278 h292
  have h350 := pay46_sum _ _ r c _ h290
  have h352 := pay47_val (k0_pay3 v0) (k0_pay4 v0) (k0_pay5 v1) (k0_pay6 v1) r c
  have h398 := pay51_sum _ _ _ _ r c _ _ h338 h352
  have h410 := pay53_sum _ _ r c _ h350
  have h412 := pay54_val (k0_pay3 v0) (k0_pay4 v0) (k0_pay5 v1) (k0_pay6 v1) r c
  have h458 := pay58_sum _ _ _ _ r c _ _ h398 h412
  have h470 := pay60_sum _ _ r c _ h410
  have h472 := pay61_val (k0_pay3 v0) (k0_pay4 v0) (k0_pay5 v1) (k0_pay6 v1) r c
  have h518 := pay65_sum _ _ _ _ r c _ _ h458 h472
  have h530 := pay67_sum _ _ r c _ h470
  have h532 := pay68_val (k0_pay3 v0) (k0_pay4 v0) (k0_pay5 v1) (k0_pay6 v1) r c
  have h578 := pay72_sum _ _ _ _ r c _ _ h518 h532
  have h590 := pay74_sum _ _ r c _ h530
  have h592 := pay75_val (k0_pay3 v0) (k0_pay4 v0) (k0_pay5 v1) (k0_pay6 v1) r c
  have h638 := pay79_sum _ _ _ _ r c _ _ h578 h592
  have h650 := pay81_sum _ _ r c _ h590
  have h652 := pay82_val (k0_pay3 v0) (k0_pay4 v0) (k0_pay5 v1) (k0_pay6 v1) r c
  have h698 := pay86_sum _ _ _ _ r c _ _ h638 h652
  have h710 := pay88_sum _ _ r c _ h650
  have h712 := pay89_val (k0_pay3 v0) (k0_pay4 v0) (k0_pay5 v1) (k0_pay6 v1) r c
  have h758 := pay93_sum _ _ _ _ r c _ _ h698 h712
  have h770 := pay95_sum _ _ r c _ h710
  have h772 := pay96_val (k0_pay3 v0) (k0_pay4 v0) (k0_pay5 v1) (k0_pay6 v1) r c
  have h818 := pay100_sum _ _ _ _ r c _ _ h758 h772
  have h830 := pay102_sum _ _ r c _ h770
  have h832 := pay103_val (k0_pay3 v0) (k0_pay4 v0) (k0_pay5 v1) (k0_pay6 v1) r c
  have h878 := pay107_sum _ _ _ _ r c _ _ h818 h832
  have h890 := pay109_sum _ _ r c _ h830
  have h892 := pay110_val (k0_pay3 v0) (k0_pay4 v0) (k0_pay5 v1) (k0_pay6 v1) r c
  have h938 := pay114_sum _ _ _ _ r c _ _ h878 h892
  have h950 := pay116_sum _ _ r c _ h890
  have h952 := pay117_val (k0_pay3 v0) (k0_pay4 v0) (k0_pay5 v1) (k0_pay6 v1) r c
  have hfin := pay1_val _ _ _ _ r c _ _ _ h938 h950 h952
  exact hfin.trans (gaussEntry_eq_range _ _ _ _ _ _ (fun d => lg_val v0 v1 r c d) (fun d => qd_val v0 v1 r c d)).symm

end Cert.KernelIdeal.GaussBody

end
-- ==== Proof.Value0.lean ====
/-
  The first region's result array on the extended reals: after the eight points, entry `(a, b)` of the
  1024 x 1024 matrix is the specification's likelihood entry of row `a` of `p` against row `b` of `q`.

  Point `t` loads rows `128 t … 128 t + 127` of `p` and the whole transpose of `q`, and writes back rows
  `128 t … 128 t + 127` of the matrix; entry `(r, b)` of that block is the body's value at `(r, b)`, the
  likelihood entry of row `128 t + r` of `p` against row `b` of `q`.  The eight row blocks cover the matrix:
  row `a` lies in the block of point `a / 128`.
-/
import proofs.«122097_j1417339208257_1_alg».proof.Proof.KI.Region0
import proofs.«122097_j1417339208257_1_alg».proof.Proof.GaussBody
import proofs.«122097_j1417339208257_1_alg».proof.Proof.Spec
import Idealize.ShloMosaic.Lib.Pipeline.Value
import Idealize.ShloMosaic.Lib.ValueIdx

noncomputable section

namespace Cert.KernelIdeal.Value0

open Cert.KernelIdeal Cert.KernelIdeal.Gen Cert.KernelIdeal.Hand Cert.KernelIdeal.GaussBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-block rectangles start at offset zero on both axes. -/
theorem zero_offsets : (![0, 0] : Fin 2 → Nat) = fun _ => 0 := funext fun a => by fin_cases a <;> rfl

/-- The likelihood matrix of the arrays the region finds: `p` in the first window's array, the transpose of `q`
    in the second's. -/
abbrev gaussOf (c : Dev nD) : S1024x1024.Idx → EReal := fun j => Cert.Spec.gaussEntry
  (fun d => V c main_arg2 (ix2 (n0 := 1024) (j 0) (Cert.Spec.lo d))) (fun d => V c main_arg2 (ix2 (n0 := 1024) (j 0) (Cert.Spec.hi d)))
  (fun d => V c main_v0 (ix2 (Cert.Spec.lo d) (j 1))) (fun d => V c main_v0 (ix2 (Cert.Spec.hi d) (j 1)))

/-- The three index maps over the eight points: the blocks of `p` and of the result move down one block of rows
    per point, the transpose of `q` stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a point's block: if the loaded block of `p` is rows of `P` at row offset and the loaded
    transpose is `Q`, the body's value at `y` is the likelihood entry of `P`'s row against `Q`'s column. -/
theorem block_entry (x0 : Vec Ideal S128x128 .f32) (x1 : Vec Ideal S128x1024 .f32)
    (P : S1024x128.Idx → EReal) (Q : S128x1024.Idx → EReal) (y : S128x1024.Idx) (a : Fin 1024) (b : Fin 1024)
    (h0 : ∀ d : Fin 128, x0 (ix2 (y 0) d) = P (ix2 a d))
    (h1 : ∀ d : Fin 128, x1 (ix2 d (y 1)) = Q (ix2 d b)) :
    body0 (F := Ideal) x0 x1 y = Cert.Spec.gaussEntry (fun d => P (ix2 a (Cert.Spec.lo d))) (fun d => P (ix2 a (Cert.Spec.hi d)))
      (fun d => Q (ix2 (Cert.Spec.lo d) b)) (fun d => Q (ix2 (Cert.Spec.hi d) b)) := by
  refine (congrArg (body0 (F := Ideal) x0 x1) (eq_ix2 y)).trans ((body0_apply x0 x1 (y 0) (y 1)).trans ?_)
  simp only [h0, h1]

/-- The block of `p` at point `t` is rows `128 t … 128 t + 127` of the array. -/
theorem blockP_apply (c : Dev nD) (t : Fin cfg0.N) (x : S128x128.Idx) (k : S1024x128.Idx)
    (hk0 : (k 0).val = 128 * t.val + (x 0).val) (hk1 : (k 1).val = (x 1).val) :
    (iblk0 (F := Ideal) V c 0 t : Vec Ideal S128x128 .f32) x = (V c main_arg2 : S1024x128.Idx → EReal) k := by
  obtain ⟨e0, e1, -, -, -, -⟩ := index_facts t
  unfold iblk0
  rw [View.read_apply]
  show V c main_arg2 _ = V c main_arg2 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 128 + 1 * (x 1).val = (k 1).val; rw [e1, hk1]; omega

/-- The block of the transposed `q` at every point is the whole array. -/
theorem blockQ_apply (c : Dev nD) (t : Fin cfg0.N) (x : S128x1024.Idx) (k : S128x1024.Idx)
    (hk0 : (k 0).val = (x 0).val) (hk1 : (k 1).val = (x 1).val) :
    (iblk0 (F := Ideal) V c 1 t : Vec Ideal S128x1024 .f32) x = (V c main_v0 : S128x1024.Idx → EReal) k := by
  obtain ⟨-, -, e0, e1, -, -⟩ := index_facts t
  unfold iblk0
  rw [View.read_apply]
  show V c main_v0 _ = V c main_v0 _
  congr 1
  funext a
  apply Fin.ext
  match a with
  | ⟨0, _⟩ => show win0_1.index t (0 : Fin 2) * 128 + 1 * (x 0).val = (k 0).val; rw [e0, hk0]; omega
  | ⟨1, _⟩ => show win0_1.index t (1 : Fin 2) * 1024 + 1 * (x 1).val = (k 1).val; rw [e1, hk1]; omega

/-- Where point `t`'s result block sits in the matrix: rows `128 t … 128 t + 127`, every column. -/
theorem blockOut_emb (t : Fin cfg0.N) (y : ((cfg0.win 2).xblock (grid0.coords t)).Idx) :
    ((((cfg0.win 2).blk t).view.emb y) 0).val = 128 * t.val + (y 0).val
      ∧ ((((cfg0.win 2).blk t).view.emb y) 1).val = (y 1).val := by
  obtain ⟨-, -, -, -, e0, e1⟩ := index_facts t
  constructor
  · show win0_2.index t (0 : Fin 2) * 128 + 1 * (y 0).val = _; rw [e0]; omega
  · show win0_2.index t (1 : Fin 2) * 1024 + 1 * (y 1).val = _; rw [e1]; omega

/-- What point `t` writes back is block `t` of the likelihood matrix of the arrays the region finds. -/
theorem flushed_eq (c : Dev nD) (t : Fin cfg0.N) :
    (dat0 (F := Ideal) V c).flushed 2 t = ((cfg0.win 2).blk t).view.read (Elt Ideal) (gaussOf V c) := by
  show (cfg0.win 2).cut (grid0.coords t) ((dat0 (F := Ideal) V c).after 2 t) = _
  rw [after0_2]
  unfold out0_2
  rw [View.canon_unit_zero zero_offsets]
  simp only [View.ld_unit_zero (S := S128x128) zero_offsets, View.ld_unit_zero (S := S128x1024) zero_offsets]
  funext y
  obtain ⟨o0, o1⟩ := blockOut_emb t y
  show body0 (F := Ideal) (iblk0 V c 0 t) (iblk0 V c 1 t) ((cfg0.win 2).xinj (grid0.coords t) y)
    = gaussOf V c (((cfg0.win 2).blk t).view.emb y)
  exact block_entry (iblk0 V c 0 t) (iblk0 V c 1 t) (V c main_arg2) (V c main_v0) ((cfg0.win 2).xinj (grid0.coords t) y)
    ((((cfg0.win 2).blk t).view.emb y) 0) ((((cfg0.win 2).blk t).view.emb y) 1)
    (fun d => blockP_apply V c t (ix2 (((cfg0.win 2).xinj (grid0.coords t) y) 0) d) (ix2 ((((cfg0.win 2).blk t).view.emb y) 0) d) o0 rfl)
    (fun d => blockQ_apply V c t (ix2 d (((cfg0.win 2).xinj (grid0.coords t) y) 1)) (ix2 d ((((cfg0.win 2).blk t).view.emb y) 1)) rfl o1)

/-- An entry of the matrix is in point `t`'s block iff each coordinate is in the block's range on its axis. -/
theorem mem_block (t : Fin cfg0.N) (i : S1024x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v1).slice (win0_2.rect t)).set ↔ _
  rw [View.set_slice_whole, Rect.mem_set_unit]
  exact Iff.rfl

/-- The eight row blocks cover the matrix: row `a` is in the block of point `a / 128`. -/
theorem covered (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  have hN : cfg0.N = 8 := N_0
  have ht : (i 0).val / 128 < cfg0.N := by rw [hN]; omega
  obtain ⟨-, -, -, -, e0, e1⟩ := index_facts ⟨(i 0).val / 128, ht⟩
  refine ⟨⟨(i 0).val / 128, ht⟩, flush0_2 _, ?_⟩
  rw [mem_block]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_2.index ⟨(i 0).val / 128, ht⟩ (1 : Fin 2) * 1024 ≤ (i 1).val
      ∧ (i 1).val < win0_2.index ⟨(i 0).val / 128, ht⟩ (1 : Fin 2) * 1024 + 1024
    rw [e1]
    omega

/-- The result array after the eight points: the likelihood matrix of the arrays the region finds. -/
theorem final0 (c : Dev nD) :
    (dat0 (F := Ideal) V c).arrAt 2 cfg0.N = fun j : S1024x1024.Idx => Cert.Spec.gaussEntry
      (fun d => V c main_arg2 (ValueIdx.ix2 (n0 := 1024) (j 0) (Cert.Spec.lo d))) (fun d => V c main_arg2 (ValueIdx.ix2 (n0 := 1024) (j 0) (Cert.Spec.hi d)))
      (fun d => V c main_v0 (ValueIdx.ix2 (Cert.Spec.lo d) (j 1))) (fun d => V c main_v0 (ValueIdx.ix2 (Cert.Spec.hi d) (j 1))) :=
  (dat0 (F := Ideal) V c).arrAt_eq_of_cover 2 (gaussOf V c) (fun t _ => flushed_eq V c t) covered

end Cert.KernelIdeal.Value0
end
-- ==== Proof.ChainBody.lean ====
/-
  The two values the second kernel stores, read at one entry.

  Both are one matrix product into a zero accumulator, contracting the left operand's columns with the right
  operand's rows; on the extended reals the narrowing of the operands to the short float format changes nothing and a
  cast to the same shape is the identity.  So entry `(r, c)` of the first is Σ_k a(r, k) · g(k, c).  The second
  transposes its right operand first, which swaps the coordinates it is read at, and takes the logarithm entry by
  entry: log Σ_k t(r, k) · b(c, k).
-/
import proofs.«122097_j1417339208257_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.ChainBody

open Cert.KernelIdeal Cert.KernelIdeal.Gen Idealize.ShloMosaic

local notation "D" => dot_S512x1024_S1024x1024_S512x1024_1_0_0_1_n_n

/-- The left operand's row coordinate is the output's row coordinate. -/
theorem lhs_row (i : S512x1024.Idx) (q : (D).contr.Idx) : ((D).lhsIdx i q 0).val = (i 0).val := by
  unfold DotDims.lhsIdx
  rw [dif_neg (show ¬(0 : Fin S512x1024.rank) ∈ (D).lhsBatch by decide),
    dif_pos (show (0 : Fin S512x1024.rank) ∈ (D).lhsNonContracting by decide)]
  rfl

/-- The right operand's column coordinate is the output's column coordinate. -/
theorem rhs_col (i : S512x1024.Idx) (q : (D).contr.Idx) : ((D).rhsIdx i q 1).val = (i 1).val := by
  unfold DotDims.rhsIdx
  rw [dif_neg (show ¬(1 : Fin S1024x1024.rank) ∈ (D).rhsBatch by decide),
    dif_pos (show (1 : Fin S1024x1024.rank) ∈ (D).rhsNonContracting by decide)]
  rfl

/-- The product into a zero accumulator at entry `(r, c)`: the sum over the contracted coordinate `k` of the left
    operand at `(r, k)` times the right operand at `(k, c)`. -/
theorem mm_apply {φ₁ φ₂ : FTy} (l : FVec Ideal S512x1024 φ₁) (m : FVec Ideal S1024x1024 φ₂) (r : Fin 512) (c : Fin 1024) :
    FloatOps.matmul (D) none l m (constant S512x1024 .f32 0x00000000#32) (ValueIdx.ix2 r c)
      = ∑ k : Fin 1024, l (ValueIdx.ix2 r k) * m (ValueIdx.ix2 k c) := by
  rw [Ideal.matmul_constant_zero_apply, ← Equiv.sum_comp (ValueIdx.contrEquiv1 (D) 1024 rfl rfl).symm]
  refine Finset.sum_congr rfl fun k _ => ?_
  have hk := ValueIdx.contrEquiv1_symm_val (D) 1024 rfl rfl k
  have el : (D).lhsIdx (ValueIdx.ix2 r c) ((ValueIdx.contrEquiv1 (D) 1024 rfl rfl).symm k) = ValueIdx.ix2 r k :=
    funext fun a => Fin.ext (by
      match a with
      | ⟨0, _⟩ => exact lhs_row _ _
      | ⟨1, _⟩ => exact ((D).lhsIdx_val_of_single rfl _ _).trans hk)
  have er : (D).rhsIdx (ValueIdx.ix2 r c) ((ValueIdx.contrEquiv1 (D) 1024 rfl rfl).symm k) = ValueIdx.ix2 k c :=
    funext fun a => Fin.ext (by
      match a with
      | ⟨0, _⟩ => exact ((D).rhsIdx_val_of_single rfl _ _).trans hk
      | ⟨1, _⟩ => exact rhs_col _ _)
  rw [el, er]

/-- Entry `(r, c)` of the first stored value: row `r` of `a` against column `c` of `g`. -/
theorem pay1_apply (a : Vec Ideal S512x1024 .f32) (g : Vec Ideal S1024x1024 .f32) (r : Fin 512) (c : Fin 1024) :
    k1_pay1 (F := Ideal) a g (ValueIdx.ix2 r c) = ∑ k : Fin 1024, a (ValueIdx.ix2 r k) * g (ValueIdx.ix2 k c) := by
  unfold k1_pay1
  simp only [shapeCast_self]
  exact mm_apply _ _ r c

/-- Entry `(r, c)` of the second stored value: the logarithm of row `r` of `t` against row `c` of `b`. -/
theorem pay2_apply (t : Vec Ideal S512x1024 .f32) (b : Vec Ideal S1024x1024 .f32) (r : Fin 512) (c : Fin 1024) :
    k1_pay2 (F := Ideal) t b (ValueIdx.ix2 r c) = Ideal.log (∑ k : Fin 1024, t (ValueIdx.ix2 r k) * b (ValueIdx.ix2 c k)) := by
  unfold k1_pay2
  show Ideal.log (FloatOps.matmul (F := Ideal) (D) none _ _ (constant S512x1024 .f32 0x00000000#32) (ValueIdx.ix2 r c)) = _
  rw [mm_apply]
  refine congrArg Ideal.log (Finset.sum_congr rfl fun k _ => ?_)
  rw [transpose_apply [1, 0] _ transposes_S1024x1024_p1_0_S1024x1024 (ValueIdx.ix2 k c) (ValueIdx.ix2 c k)
    (fun d => match d with | ⟨0, _⟩ => rfl | ⟨1, _⟩ => rfl)]
  rfl

end Cert.KernelIdeal.ChainBody

end
-- ==== Proof.Value1.lean ====
/-
  The result array of the second kernel region, entry by entry.

  The region walks an 8 x 4 grid of points, point `t` at row `t / 4` and column `t % 4`.  At the points that start a
  row of the grid the scratch buffer receives the product of rows `512·(t/4) … 512·(t/4) + 511` of `k1` with the
  likelihood matrix, and the three points that follow leave it as it is; so after every point of grid row `I` the
  scratch holds Σ_a k1(512·I + r, a) · g(a, b) at `(r, b)`.  Each point multiplies the scratch by the transpose of
  rows `1024·J … 1024·J + 1023` of `k2` (`J` its grid column), takes the logarithm and writes the 512 x 1024 block
  at block position `(I, J)` of the result.  The 32 blocks tile the 4096 x 4096 result, and on each the value written
  is the specification's `log ((k1 · g) · k2ᵀ)` read there.
-/
import proofs.«122097_j1417339208257_1_alg».proof.Proof.KI.Region1
import proofs.«122097_j1417339208257_1_alg».proof.Proof.ChainBody
import proofs.«122097_j1417339208257_1_alg».proof.Proof.Spec
import Idealize.ShloMosaic.Lib.Pipeline.Value
import Idealize.ShloMosaic.Lib.ValueIdx

set_option maxRecDepth 16384

noncomputable section

open scoped BigOperators

namespace Cert.KernelIdeal.Value1

open Cert.KernelIdeal Cert.KernelIdeal.Gen Cert.KernelIdeal.Hand Cert.KernelIdeal.ChainBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- `k1`, the likelihood matrix and `k2` as the region finds them on core `c`, as plain index functions. -/
abbrev k1Of (c : Dev nD) : S4096x1024.Idx → EReal := V c main_arg0
abbrev gOf (c : Dev nD) : S1024x1024.Idx → EReal := V c main_v1
abbrev k2Of (c : Dev nD) : S4096x1024.Idx → EReal := V c main_arg1

/-- The block positions of the four windows at point `t`, from the grid row `t / 4` and column `t % 4`. -/
theorem block_positions : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 2) = t.val % 4 ∧ win1_2.index t (1 : Fin 2) = 0
    ∧ win1_3.index t (0 : Fin 2) = t.val / 4 ∧ win1_3.index t (1 : Fin 2) = t.val % 4 :=
  (by decide +kernel : ∀ t : Fin grid1.N, _)

/-- The block of `k1` at point `t`: rows `512·(t/4) …` of `k1`, all its columns. -/
theorem k1_block_at (c : Dev nD) (t : Fin cfg1.N) (y : S512x1024.Idx) (i : S4096x1024.Idx)
    (h0 : (i 0).val = 512 * (t.val / 4) + (y 0).val) (h1 : (i 1).val = (y 1).val) :
    (iblk1 V c 0 t : Vec Ideal S512x1024 .f32) y = k1Of V c i := by
  obtain ⟨e0, e1, -⟩ := block_positions t
  unfold iblk1
  rw [View.read_apply]
  show V c main_arg0 _ = V c main_arg0 _
  congr 1
  funext a
  apply Fin.ext
  match a with
  | ⟨0, _⟩ => show win1_0.index t 0 * 512 + 1 * (y 0).val = (i 0).val; rw [e0, h0]; omega
  | ⟨1, _⟩ => show win1_0.index t 1 * 1024 + 1 * (y 1).val = (i 1).val; rw [e1, h1]; omega

/-- The block of the likelihood matrix at every point is the whole matrix. -/
theorem g_block_at (c : Dev nD) (t : Fin cfg1.N) (y : S1024x1024.Idx) :
    (iblk1 V c 1 t : Vec Ideal S1024x1024 .f32) y = gOf V c y := by
  obtain ⟨-, -, e0, e1, -⟩ := block_positions t
  unfold iblk1
  rw [View.read_apply]
  show V c main_v1 _ = V c main_v1 _
  congr 1
  funext a
  apply Fin.ext
  match a with
  | ⟨0, _⟩ => show win1_1.index t 0 * 1024 + 1 * (y 0).val = (y 0).val; rw [e0]; omega
  | ⟨1, _⟩ => show win1_1.index t 1 * 1024 + 1 * (y 1).val = (y 1).val; rw [e1]; omega

/-- The block of `k2` at point `t`: rows `1024·(t%4) …` of `k2`, all its columns. -/
theorem k2_block_at (c : Dev nD) (t : Fin cfg1.N) (y : S1024x1024.Idx) (i : S4096x1024.Idx)
    (h0 : (i 0).val = 1024 * (t.val % 4) + (y 0).val) (h1 : (i 1).val = (y 1).val) :
    (iblk1 V c 2 t : Vec Ideal S1024x1024 .f32) y = k2Of V c i := by
  obtain ⟨-, -, -, -, e0, e1, -⟩ := block_positions t
  unfold iblk1
  rw [View.read_apply]
  show V c main_arg1 _ = V c main_arg1 _
  congr 1
  funext a
  apply Fin.ext
  match a with
  | ⟨0, _⟩ => show win1_2.index t 0 * 1024 + 1 * (y 0).val = (i 0).val; rw [e0, h0]; omega
  | ⟨1, _⟩ => show win1_2.index t 1 * 1024 + 1 * (y 1).val = (i 1).val; rw [e1, h1]; omega

/-- At a point that starts a row of the grid the scratch receives the first product of that row's block of `k1`. -/
theorem scratch_first (c : Dev nD) (t : Fin cfg1.N) (h : t.val % 4 = 0) (r : Fin 512) (b : Fin 1024) (R : Fin 4096)
    (hR : R.val = 512 * (t.val / 4) + r.val) :
    scrAt V c t.val t.isLt (ix2 r b)
      = ∑ a : Fin 1024, k1Of V c (ix2 R a) * gOf V c (ix2 a b) := by
  rw [scrAt_first V c t h]
  unfold tmp1
  rw [View.canon_unit_zero zero_offsets]
  simp only [View.ld_unit_zero (S := S512x1024) zero_offsets, View.ld_unit_zero (S := S1024x1024) zero_offsets]
  refine (pay1_apply (iblk1 V c 0 t) (iblk1 V c 1 t) r b).trans ?_
  refine Finset.sum_congr rfl fun a _ => ?_
  rw [k1_block_at V c t (ix2 r a) (ix2 R a) hR rfl, g_block_at V c t (ix2 a b)]

/-- After every point of grid row `n / 4` the scratch holds the first product of that row's block of `k1`. -/
theorem scratch_at (c : Dev nD) : ∀ (n : ℕ) (hn : n < cfg1.N) (r : Fin 512) (b : Fin 1024) (R : Fin 4096),
    R.val = 512 * (n / 4) + r.val →
    scrAt V c n hn (ix2 r b)
      = ∑ a : Fin 1024, k1Of V c (ix2 R a) * gOf V c (ix2 a b) := by
  intro n
  induction n with
  | zero => exact fun hn r b R hR => scratch_first V c ⟨0, hn⟩ rfl r b R hR
  | succ n ih =>
    intro hn r b R hR
    by_cases h : (n + 1) % 4 = 0
    · exact scratch_first V c ⟨n + 1, hn⟩ h r b R hR
    · exact (congrFun (scrAt_later V c ⟨n + 1, hn⟩ h) (ix2 r b)).trans
        (ih (Nat.lt_of_succ_lt hn) r b R (by omega))

/-- What a point writes at `y` of its block, given the scratch's contents (the first product on grid row `I`) and the
    block of `k2` (its rows from `1024·J`): the specification at row `512·I + y₀`, column `1024·J + y₁`. -/
theorem written_at (s : Vec Ideal S512x1024 .f32) (x2 : Vec Ideal S1024x1024 .f32)
    (k1 k2 : S4096x1024.Idx → EReal) (g : S1024x1024.Idx → EReal) (I J : ℕ) (y : S512x1024.Idx) (i : S4096x4096.Idx)
    (hs : ∀ (r : Fin 512) (b : Fin 1024) (R : Fin 4096), R.val = 512 * I + r.val →
      s (ix2 r b) = ∑ a : Fin 1024, k1 (ix2 R a) * g (ix2 a b))
    (hx : ∀ (q b : Fin 1024) (Q : Fin 4096), Q.val = 1024 * J + q.val → x2 (ix2 q b) = k2 (ix2 Q b))
    (h0 : (i 0).val = 512 * I + (y 0).val) (h1 : (i 1).val = 1024 * J + (y 1).val) :
    k1_pay2 (F := Ideal) s x2 y = Cert.Spec.chainOut k1 k2 g i := by
  obtain ⟨r, q, rfl⟩ : ∃ r q, y = ix2 r q := ⟨y 0, y 1, eq_ix2 y⟩
  rw [pay2_apply]
  unfold Cert.Spec.chainOut Cert.Spec.chainTmp
  refine congrArg Ideal.log (Finset.sum_congr rfl fun b _ => ?_)
  rw [hs r b (i 0) h0, hx q b (i 1) h1]

/-- What point `t` writes back is the specification read through the point's block of the result. -/
theorem flushed_eq (c : Dev nD) (t : Fin cfg1.N) :
    (dat1 (F := Ideal) V c).flushed 3 t
      = ((cfg1.win 3).blk t).view.read (Elt Ideal) (Cert.Spec.chainOut (V c main_arg0) (V c main_arg1) (V c main_v1)) := by
  show (cfg1.win 3).cut (grid1.coords t) ((dat1 (F := Ideal) V c).after 3 t) = _
  rw [after1_3]
  unfold out1_3
  rw [View.canon_unit_zero zero_offsets]
  simp only [View.ld_unit_zero (S := S512x1024) zero_offsets, View.ld_unit_zero (S := S1024x1024) zero_offsets]
  obtain ⟨-, -, -, -, -, -, e0, e1⟩ := block_positions t
  funext y
  rw [View.read_apply]
  refine written_at (scrAt V c t.val t.isLt) (iblk1 V c 2 t) (k1Of V c) (k2Of V c) (gOf V c)
    (t.val / 4) (t.val % 4) y _
    (fun r b R hR => scratch_at V c t.val t.isLt r b R hR)
    (fun q b Q hQ => k2_block_at V c t (ix2 q b) (ix2 Q b) hQ rfl) ?_ ?_
  · show win1_3.index t 0 * 512 + 1 * (y 0).val = _
    rw [e0]; omega
  · show win1_3.index t 1 * 1024 + 1 * (y 1).val = _
    rw [e1]; omega

/-- An index of the result is in point `t`'s block iff each coordinate is in the block's range on its axis. -/
theorem mem_block (t : Fin cfg1.N) (i : S4096x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v2).slice (win1_3.rect t)).set ↔ _
  rw [View.set_slice_whole, Rect.mem_set_unit]
  exact Iff.rfl

/-- Every entry of the result lies in the block of the point at grid row `i₀ / 512`, column `i₁ / 1024`. -/
theorem covered (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 32 := rfl
  obtain ⟨t, ht⟩ : ∃ t : Fin cfg1.N, t.val = 4 * ((i 0).val / 512) + (i 1).val / 1024 := ⟨⟨_, by omega⟩, rfl⟩
  obtain ⟨-, -, -, -, -, -, e0, e1⟩ := block_positions t
  refine ⟨t, flush1_3 t, ?_⟩
  rw [mem_block]
  intro a
  match a with
  | ⟨0, _⟩ =>
    show win1_3.index t 0 * 512 ≤ (i 0).val ∧ (i 0).val < win1_3.index t 0 * 512 + 512
    rw [e0]; omega
  | ⟨1, _⟩ =>
    show win1_3.index t 1 * 1024 ≤ (i 1).val ∧ (i 1).val < win1_3.index t 1 * 1024 + 1024
    rw [e1]; omega

/-- The result array after the region: the specification's chained product, entry by entry. -/
theorem final1 (c : Dev nD) :
    (dat1 (F := Ideal) V c).arrAt 3 cfg1.N = Cert.Spec.chainOut (V c main_arg0) (V c main_arg1) (V c main_v1) :=
  (dat1 (F := Ideal) V c).arrAt_eq_of_cover 3 _ (fun t _ => flushed_eq V c t) covered

end Cert.KernelIdeal.Value1

end
-- ==== Proof.KI.Values.lean ====
/-
  What the idealized kernel program's two results hold at the end of its run, as the specification's functions of
  the launch contents of the arguments.  The host operation hands the first region `q` transposed, so the region's
  entry at row `lo d` / `hi d` and column `c` of that array is `q` at row `c` and column `lo d` / `hi d`: the first
  region's result array is the likelihood matrix.  The second region reads that array and the two weight matrices
  as launched, so its result array is the logarithm of the chained product.
-/
import proofs.«122097_j1417339208257_1_alg».proof.Proof.KI.Run
import proofs.«122097_j1417339208257_1_alg».proof.Proof.Value0
import proofs.«122097_j1417339208257_1_alg».proof.Proof.Value1
import proofs.«122097_j1417339208257_1_alg».proof.Proof.Spec
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first region finds `p` as launched. -/
theorem V1_main_arg2 (c : Dev nD) : V1 m ρ c main_arg2 = m ((c : Thread nD τ).loc main_arg2) :=
  hostOps0_keeps m ρ c main_arg2 (by decide)

/-- The first region finds, in the host operation's result, `q` transposed. -/
theorem V1_main_v0 (c : Dev nD) :
    V1 m ρ c main_v0 = transpose S128x1024 [1, 0] (m ((c : Thread nD τ).loc main_arg3)) transposes_S1024x128_S128x1024_1_0 := by
  dsimp only [V1, W1, hostOps0]; after_results

/-- The first region's result array is the likelihood matrix of `p` and `q`. -/
theorem gauss_array (c : Dev nD) :
    (dat0 (F := Ideal) (V1 m ρ) c).arrAt 2 cfg0.N
      = Cert.Spec.gaussMat (m ((c : Thread nD τ).loc main_arg2)) (m ((c : Thread nD τ).loc main_arg3)) := by
  -- the transposed array at row a, column b is `q` at row b, column a
  have hq : ∀ (a : Fin 128) (b : Fin 1024),
      V1 m ρ c main_v0 (ix2 a b) = m ((c : Thread nD τ).loc main_arg3) (ix2 b a) := fun a b => by
    rw [V1_main_v0]; exact transpose_ix2_apply _ _ a b
  rw [Cert.KernelIdeal.Value0.final0]
  funext j
  unfold Cert.Spec.gaussMat
  rw [V1_main_arg2]
  exact congrArg₂ (Cert.Spec.gaussEntry _ _) (funext fun d => hq (Cert.Spec.lo d) (j 1)) (funext fun d => hq (Cert.Spec.hi d) (j 1))

/-- The second result of the program: the likelihood matrix. -/
theorem kernel_v1 (c : Dev nD) :
    W3 m ρ c (Proc.devRef .tc main_v1)
      = Cert.Spec.gaussMat (m ((c : Thread nD τ).loc main_arg2)) (m ((c : Thread nD τ).loc main_arg3)) :=
  (W3_main_v1 m ρ c).trans (gauss_array m ρ c)

/-- The second region finds the weight matrices as launched and the first region's result array. -/
theorem V2_main_arg0 (c : Dev nD) : V2 m ρ c main_arg0 = m ((c : Thread nD τ).loc main_arg0) :=
  (W2_of_ne m ρ c main_arg0 (by decide)).trans (hostOps0_keeps m ρ c main_arg0 (by decide))
theorem V2_main_arg1 (c : Dev nD) : V2 m ρ c main_arg1 = m ((c : Thread nD τ).loc main_arg1) :=
  (W2_of_ne m ρ c main_arg1 (by decide)).trans (hostOps0_keeps m ρ c main_arg1 (by decide))
theorem V2_main_v1 (c : Dev nD) :
    V2 m ρ c main_v1 = Cert.Spec.gaussMat (m ((c : Thread nD τ).loc main_arg2)) (m ((c : Thread nD τ).loc main_arg3)) :=
  (W2_arr m ρ c 2).trans (gauss_array m ρ c)

/-- The first result of the program: the logarithm of the chained product. -/
theorem kernel_v2 (c : Dev nD) :
    W3 m ρ c (Proc.devRef .tc main_v2)
      = Cert.Spec.chainOut (m ((c : Thread nD τ).loc main_arg0)) (m ((c : Thread nD τ).loc main_arg1))
          (Cert.Spec.gaussMat (m ((c : Thread nD τ).loc main_arg2)) (m ((c : Thread nD τ).loc main_arg3))) := by
  rw [W3_main_v2, Cert.KernelIdeal.Value1.final1, V2_main_arg0, V2_main_arg1, V2_main_v1]

end Cert.KernelIdeal.Hand

end
-- ==== Proof.RefValue.lean ====
/-
  The reference program's two results, read entry by entry, are the shared specification's likelihood matrix and
  chained product.

  The reference splits each row of `p` and of `q` into 64 means and 64 variances, spreads both over a
  1024 × 64 × 1024 array (row of `p`, feature, row of `q`), and sums over the feature axis.  Reading one entry
  of that array through the slices, transposes and broadcasts lands on one entry of `p` and one of `q`; the two
  float sums start from the zero word, which is the real number zero; the negation of the first sum is `0 - ·` on
  the extended reals.  The two products are sums over the one contracted axis, and the transpose of `k2` only swaps
  the coordinates at which `k2` is read.
-/
import proofs.«122097_j1417339208257_1_alg».proof.Proof.Gen.ReferenceIdeal.Read
import proofs.«122097_j1417339208257_1_alg».proof.Proof.Spec

noncomputable section

open scoped BigOperators

namespace Cert.RefValue

open Cert.ReferenceIdeal Cert.ReferenceIdeal.Read Idealize.ShloMosaic Idealize.ShloMosaic.ValueIdx

/-- Entry `(r, k, c)` of the summed variances: variance `k` of row `r` of `p` plus variance `k` of row `c` of `q`. -/
theorem v9_at (x2 x3 : (⟨S1024x128, .f32⟩ : BufTy).Contents (Elt Ideal)) (r c : Fin 1024) (k : Fin 64) :
    val_main_v9 (F := Ideal) x2 x3 (ix3 r k c)
      = x2 (ix2 (n0 := 1024) r (Cert.Spec.hi k)) + x3 (ix2 (n0 := 1024) c (Cert.Spec.hi k)) := by
  have e1 : idx_main_v1 (idx_main_v4 (idx_main_v7 (ix3 r k c))) = ix2 (n0 := 1024) r (Cert.Spec.hi k) :=
    funext fun a => Fin.ext (by match a with | ⟨0, _⟩ => rfl | ⟨1, _⟩ => rfl)
  have e2 : idx_main_v3 (idx_main_v5 (idx_main_v6 (idx_main_v8 (ix3 r k c)))) = ix2 (n0 := 1024) c (Cert.Spec.hi k) :=
    funext fun a => Fin.ext (by match a with | ⟨0, _⟩ => rfl | ⟨1, _⟩ => rfl)
  rw [val_main_v9_apply, val_main_v7_apply, val_main_v4_apply, val_main_v1_apply, val_main_v8_apply,
    val_main_v6_apply, val_main_v5_apply, val_main_v3_apply, e1, e2]
  rfl

/-- Entry `(r, k, c)` of the difference of means: mean `k` of row `r` of `p` minus mean `k` of row `c` of `q`. -/
theorem v17_at (x2 x3 : (⟨S1024x128, .f32⟩ : BufTy).Contents (Elt Ideal)) (r c : Fin 1024) (k : Fin 64) :
    val_main_v17 (F := Ideal) x2 x3 (ix3 r k c)
      = x2 (ix2 (n0 := 1024) r (Cert.Spec.lo k)) - x3 (ix2 (n0 := 1024) c (Cert.Spec.lo k)) := by
  have e1 : idx_main_v0 (idx_main_v12 (idx_main_v15 (ix3 r k c))) = ix2 (n0 := 1024) r (Cert.Spec.lo k) :=
    funext fun a => Fin.ext (by match a with | ⟨0, _⟩ => rfl | ⟨1, _⟩ => rfl)
  have e2 : idx_main_v2 (idx_main_v13 (idx_main_v14 (idx_main_v16 (ix3 r k c)))) = ix2 (n0 := 1024) c (Cert.Spec.lo k) :=
    funext fun a => Fin.ext (by match a with | ⟨0, _⟩ => rfl | ⟨1, _⟩ => rfl)
  rw [val_main_v17_apply, val_main_v15_apply, val_main_v12_apply, val_main_v0_apply, val_main_v16_apply,
    val_main_v14_apply, val_main_v13_apply, val_main_v2_apply, e1, e2]
  rfl

/-- The index the first float sum reads at feature `k`. -/
theorem idx11_eq (r c : Fin 1024) (k : Fin 64) : idx_main_v11 (ix2 r c) k = ix3 r k c :=
  funext fun a => Fin.ext (by match a with | ⟨0, _⟩ => rfl | ⟨1, _⟩ => rfl | ⟨2, _⟩ => rfl)

/-- The index the second float sum reads at feature `k`. -/
theorem idx20_eq (r c : Fin 1024) (k : Fin 64) : idx_main_v20 (ix2 r c) k = ix3 r k c :=
  funext fun a => Fin.ext (by match a with | ⟨0, _⟩ => rfl | ⟨1, _⟩ => rfl | ⟨2, _⟩ => rfl)

/-- The reference's likelihood matrix is the specification's. -/
theorem ref_gauss (x2 x3 : (⟨Cert.ReferenceIdeal.S1024x128, .f32⟩ : BufTy).Contents (Elt Ideal)) :
    Cert.ReferenceIdeal.Read.val_main_v27 (F := Ideal) x2 x3 = Cert.Spec.gaussMat x2 x3 := by
  funext i
  obtain ⟨r, c, rfl⟩ : ∃ r c, i = ix2 r c := ⟨i 0, i 1, eq_ix2 i⟩
  rw [val_main_v27_apply, val_main_v26_apply, val_main_v25_apply, val_main_cst_2_apply, val_main_v24_apply,
    val_main_v23_apply, val_main_v22_apply, val_main_cst_1_apply, val_main_v21_apply, val_main_v11_apply,
    val_main_v20_apply, val_main_cst_apply, val_main_cst_0_apply]
  simp only [val_main_v10_apply, val_main_v19_apply, val_main_v18_apply, idx11_eq, idx20_eq, v9_at, v17_at,
    Ideal.hostUnary_exp_def, Ideal.hostUnary_log_def, Ideal.hostDivf_def, Ideal.hostNegf_def, Ideal.negf_def,
    Ideal.mulf_def, Ideal.subf_def, Ideal.ofBits_def, Ideal.ofBits_zero_f32, zero_add]
  unfold Cert.Spec.gaussMat Cert.Spec.gaussEntry
  rw [zero_sub]

/-- Entry `(u, b)` of the first product: row `u` of `k1` against column `b` of the likelihood matrix. -/
theorem v28_at (x0 : (⟨S4096x1024, .f32⟩ : BufTy).Contents (Elt Ideal))
    (x2 x3 : (⟨S1024x128, .f32⟩ : BufTy).Contents (Elt Ideal)) (u : Fin 4096) (b : Fin 1024) :
    val_main_v28 (F := Ideal) x0 x2 x3 (ix2 u b) = Cert.Spec.chainTmp x0 (Cert.Spec.gaussMat x2 x3) u b := by
  rw [val_main_v28_apply, ref_gauss]
  unfold Cert.Spec.chainTmp
  refine Finset.sum_congr rfl fun a _ => ?_
  have e1 : lidx_main_v28 (ix2 u b) a = ix2 u a :=
    funext fun d => Fin.ext (by match d with | ⟨0, _⟩ => rfl | ⟨1, _⟩ => rfl)
  have e2 : ridx_main_v28 (ix2 u b) a = ix2 a b :=
    funext fun d => Fin.ext (by match d with | ⟨0, _⟩ => rfl | ⟨1, _⟩ => rfl)
  rw [e1, e2]

/-- The reference's final result is the specification's: the logarithm of `(k1 · G) · k2ᵀ`, grouped from the left. -/
theorem ref_out (x0 x1 : (⟨Cert.ReferenceIdeal.S4096x1024, .f32⟩ : BufTy).Contents (Elt Ideal))
    (x2 x3 : (⟨Cert.ReferenceIdeal.S1024x128, .f32⟩ : BufTy).Contents (Elt Ideal)) :
    Cert.ReferenceIdeal.Read.val_main_v31 (F := Ideal) x0 x1 x2 x3
      = Cert.Spec.chainOut x0 x1 (Cert.Spec.gaussMat x2 x3) := by
  funext i
  obtain ⟨u, v, rfl⟩ : ∃ u v, i = ix2 u v := ⟨i 0, i 1, eq_ix2 i⟩
  rw [val_main_v31_apply, val_main_v30_apply, Ideal.hostUnary_log_def]
  show _ = Ideal.log (∑ b : Fin 1024, Cert.Spec.chainTmp x0 (Cert.Spec.gaussMat x2 x3) u b * x1 (ix2 (n0 := 4096) v b))
  refine congrArg Ideal.log (Finset.sum_congr rfl fun b _ => ?_)
  have e1 : lidx_main_v30 (ix2 u v) b = ix2 u b :=
    funext fun d => Fin.ext (by match d with | ⟨0, _⟩ => rfl | ⟨1, _⟩ => rfl)
  have e2 : idx_main_v29 (ridx_main_v30 (ix2 u v) b) = ix2 (n0 := 4096) v b :=
    funext fun d => Fin.ext (by match d with | ⟨0, _⟩ => rfl | ⟨1, _⟩ => rfl)
  rw [val_main_v29_apply, e1, e2, v28_at]

end Cert.RefValue

end
-- ==== Proof.lean ====
/-
  The kernel computes, in two Pallas regions, the pairwise Gaussian expected-likelihood matrix G of the rows of `p`
  and `q` (each row 64 means then 64 variances) and then log ((k1 · G) · k2ᵀ); the reference computes the same two
  arrays with whole-array jnp operations.

  At the ideal instance an entry of G is exp (1/2 · (((0 − Σ_d log s_d) − 64·log 2π) − Σ_d (μp_d − μq_d)² / s_d)),
  s_d = σp_d + σq_d.  The kernel accumulates the two 64-term sums feature by feature from zero, the reference
  reduces a rank-3 array along its middle axis: the same sums, addition on the extended reals being commutative and
  associative with no finiteness needed; the kernel writes the negation as 0 − x, the reference as −x; the two float
  literals are the same words on both sides and are never evaluated.  The chained product is grouped from the left
  on both sides; the kernel's roundings to bfloat16 before each matrix product are the identity at the ideal
  instance, and its first product, kept in a scratch buffer along each row of the grid, is the same sum at every
  point of the row.  So the precondition is never opened.

  Frames: neither kernel program has a generated frame (the second region carries its scratch between grid points),
  so the run of each program is written over the several-regions launch theorem: proof data for the two regions
  (KI/Region0, KI/Region1), the bodies run symbolically (KI/Region0, KI/Kernel1, KI/Region1Body), the buffers'
  contents at each boundary and the launch (KI/Run); KB/ is the same text for the word-level program.  The ideal
  pass rewrote nothing, so `preserves` is `True`.
-/
import proofs.«122097_j1417339208257_1_alg».proof.Defs
import proofs.«122097_j1417339208257_1_alg».proof.Proof.Gen.Kernel
import proofs.«122097_j1417339208257_1_alg».proof.Proof.Gen.KernelIdeal
import proofs.«122097_j1417339208257_1_alg».proof.Proof.Gen.ReferenceIdeal
import proofs.«122097_j1417339208257_1_alg».proof.Proof.Gen.ReferenceIdeal.Run
import proofs.«122097_j1417339208257_1_alg».proof.Proof.Gen.ReferenceIdeal.Read
import proofs.«122097_j1417339208257_1_alg».proof.Proof.Gen.Pre_finite_inputs
import proofs.«122097_j1417339208257_1_alg».proof.Proof.Frames
import proofs.«122097_j1417339208257_1_alg».proof.Proof.KI.Values
import proofs.«122097_j1417339208257_1_alg».proof.Proof.RefValue
import Idealize.ShloMosaic.Adequacy
import Idealize.ShloMosaic.Init

noncomputable section

namespace Cert.Proof

open Idealize.ShloMosaic Idealize.ShloMosaic.TcCoe Idealize.SL.Sem

/-- Both idealized programs end with the likelihood matrix and the logarithm of the chained product of the
    launch contents: the kernel by its run and the two regions' result arrays, the reference by its generated run
    read back stage by stage. -/
theorem algebraic : Cert.algebraic_KernelIdeal_ReferenceIdeal := by
  intro m ρ m' ρ' _ hagree
  refine ⟨fun c => Cert.Spec.chainOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.Spec.gaussMat (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c => Cert.Spec.gaussMat (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c =>
      ⟨(h c Cert.KernelIdeal.main_v2 (by decide)).trans (Cert.KernelIdeal.Hand.kernel_v2 m ρ c),
       (h c Cert.KernelIdeal.main_v1 (by decide)).trans (Cert.KernelIdeal.Hand.kernel_v1 m ρ c),
       (h c Cert.KernelIdeal.main_arg0 (by decide)).trans (Cert.KernelIdeal.Hand.W3_main_arg0 m ρ c),
       (h c Cert.KernelIdeal.main_arg1 (by decide)).trans (Cert.KernelIdeal.Hand.W3_main_arg1 m ρ c),
       (h c Cert.KernelIdeal.main_arg2 (by decide)).trans (Cert.KernelIdeal.Hand.W3_main_arg2 m ρ c),
       (h c Cert.KernelIdeal.main_arg3 (by decide)).trans (Cert.KernelIdeal.Hand.W3_main_arg3 m ρ c)⟩)
      (Cert.KernelIdeal.Hand.run (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v31_eq, Cert.RefValue.ref_out,
        (hagree c).1, (hagree c).2.1, (hagree c).2.2.1, (hagree c).2.2.2]
    · rw [(h c).2.1, Cert.ReferenceIdeal.Read.val_main_v27_eq, Cert.RefValue.ref_gauss,
        (hagree c).2.2.1, (hagree c).2.2.2]

theorem claim : Cert.Claim := ⟨Cert.Kernel.Gen.facts, Cert.KernelIdeal.Gen.facts, Cert.ReferenceIdeal.Gen.facts, Cert.Pre_finite_inputs.Gen.facts,
  Cert.Proof.Frames.frame_p, Cert.Proof.Frames.frame_pi, Cert.Proof.Frames.frame_ri, trivial, algebraic⟩

end Cert.Proof

end
